-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x1024x1024 .f32) (main_arg1 : FVec F S3072x1024 .f32) (main_arg2 : FVec F S1024x1024 .f32) (main_arg3 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S24x8x1024x128 : Shape := ⟨4, ![24, 8, 1024, 128]⟩
abbrev S128x1024 : Shape := ⟨2, ![128, 1024]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1024x64 : Shape := ⟨2, ![1024, 64]⟩
abbrev S1024x1 : Shape := ⟨2, ![1024, 1]⟩
abbrev S1x1024 : Shape := ⟨2, ![1, 1024]⟩

abbrev nBuf : Space → Nat
  | .hbm => 13
  | .vmem => 20
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072x1024, .bf16⟩
  | .hbm, ⟨5, _⟩ => ⟨S1024x1024, .bf16⟩
  | .hbm, ⟨6, _⟩ => ⟨S8192x1024, .f32⟩
  | .hbm, ⟨7, _⟩ => ⟨S24x8x1024x128, .bf16⟩
  | .hbm, ⟨8, _⟩ => ⟨S8x1024x1024, .bf16⟩
  | .hbm, ⟨9, _⟩ => ⟨S8192x1024, .bf16⟩
  | .hbm, ⟨10, _⟩ => ⟨S1x1024, .f32⟩
  | .hbm, ⟨11, _⟩ => ⟨S8192x1024, .f32⟩
  | .hbm, ⟨12, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S128x1024, .bf16⟩
  | .local _ .vmem, ⟨3, _⟩ => ⟨S128x1024, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x1024x128, .bf16⟩
  | .local _ .vmem, ⟨7, _⟩ => ⟨S1x1x1024x128, .bf16⟩
  | .local _ .vmem, ⟨8, _⟩ => ⟨S1x1x1024x128, .bf16⟩
  | .local _ .vmem, ⟨9, _⟩ => ⟨S1x1x1024x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32_10 : BitVec 32 := 8#32
  let v27 : BitVec 32 := Scalar.muli v16 c8_i32_10
  let v28 : BitVec 32 := Scalar.addi v27 arg0
  let c0_i32_11 : BitVec 32 := 0#32
  let c0_i32_12 : BitVec 32 := 0#32
  let c0_i32_13 : BitVec 32 := 0#32
  ![v28.toNat, v26.toNat, c0_i32_11.toNat, c0_i32_12.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S8x1024x1024_S8192x1024 : S8x1024x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  packedbf16_S1x1x1024x128_S1x1x1024x128_0_0_0_0 : (Rect.unit (s := S1x1x1024x128) ![0, 0, 0, 0] S1x1x1024x128.size inb_S1x1x1024x128_S1x1x1024x128_0_0_0_0).PackedRows (EltTy.packing .bf16)
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  slices_S1024x128_o0_64_S1024x64 : S1024x128.Slices ![0, 64] S1024x64
  concatenates_S1024x64_S1024x64_S1024x128_d1 : Shape.Concatenates [S1024x64, S1024x64] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S8x1024x1024 : S8192x1024.ShapeCasts S8x1024x1024
  dot_S1024x1024_S128x1024_S1024x128_1_1_0_0_n_n_wf : DotDims.WF S1024x1024 S128x1024 S1024x128 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S3072x1024.size a
  hwx0_1 : ∀ i : grid0.Coords, EltTy.bits .bf16 = 32 ∨ (Rect.block (s := S3072x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x128.size a ≤ S24x8x1024x128.size a
  hwx0_2 : ∀ i : grid0.Coords, EltTy.bits .bf16 = 32 ∨ (Rect.block (s := S24x8x1024x128) S1x1x1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x128.size a ≤ S24x8x1024x128.size a
  hwx1_0 : ∀ i : grid1.Coords, EltTy.bits .bf16 = 32 ∨ (Rect.block (s := S24x8x1024x128) S1x1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x128.size a ≤ S24x8x1024x128.size a
  hwx1_1 : ∀ i : grid1.Coords, EltTy.bits .bf16 = 32 ∨ (Rect.block (s := S24x8x1024x128) S1x1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x128.size a ≤ S24x8x1024x128.size a
  hwx1_2 : ∀ i : grid1.Coords, EltTy.bits .bf16 = 32 ∨ (Rect.block (s := S24x8x1024x128) S1x1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8x1024x3072 : Shape := ⟨3, ![8, 1024, 3072]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8x1024x3072, .f32⟩
  | .hbm, ⟨5, _⟩ => ⟨S8x1024x3x16x64, .f32⟩
  | .hbm, ⟨6, _⟩ => ⟨S3x8x16x1024x64, .f32⟩
  | .hbm, ⟨7, _⟩ => ⟨S1x8x16x1024x64, .f32⟩
  | .hbm, ⟨8, _⟩ => ⟨S8x16x1024x64, .f32⟩
  | .hbm, ⟨9, _⟩ => ⟨S1x8x16x1024x64, .f32⟩
  | .hbm, ⟨10, _⟩ => ⟨S8x16x1024x64, .f32⟩
  | .hbm, ⟨11, _⟩ => ⟨S1x8x16x1024x64, .f32⟩
  | .hbm, ⟨12, _⟩ => ⟨S8x16x1024x64, .f32⟩
  | .hbm, ⟨13, _⟩ => ⟨S8x16x1024x1024, .f32⟩
  | .hbm, ⟨14, _⟩ => ⟨S_, .f32⟩
  | .hbm, ⟨15, _⟩ => ⟨S8x16x1024x1024, .f32⟩
  | .hbm, ⟨16, _⟩ => ⟨S8x16x1024x1024, .f32⟩
  | .hbm, ⟨17, _⟩ => ⟨S_, .f32⟩
  | .hbm, ⟨18, _⟩ => ⟨S8x16x1024, .f32⟩
  | .hbm, ⟨19, _⟩ => ⟨S_, .f32⟩
  | .hbm, ⟨20, _⟩ => ⟨S8x16x1024, .f32⟩
  | .hbm, ⟨21, _⟩ => ⟨S8x16x1024, .f32⟩
  | .hbm, ⟨22, _⟩ => ⟨S8x16x1024x1, .f32⟩
  | .hbm, ⟨23, _⟩ => ⟨S8x16x1024x1024, .f32⟩
  | .hbm, ⟨24, _⟩ => ⟨S8x16x1024x1024, .f32⟩
  | .hbm, ⟨25, _⟩ => ⟨S8x16x1024x1024, .f32⟩
  | .hbm, ⟨26, _⟩ => ⟨S_, .f32⟩
  | .hbm, ⟨27, _⟩ => ⟨S8x16x1024, .f32⟩
  | .hbm, ⟨28, _⟩ => ⟨S8x16x1024x1, .f32⟩
  | .hbm, ⟨29, _⟩ => ⟨S8x16x1024x1024, .f32⟩
  | .hbm, ⟨30, _⟩ => ⟨S8x16x1024x1024, .f32⟩
  | .hbm, ⟨31, _⟩ => ⟨S8x16x1024x64, .f32⟩
  | .hbm, ⟨32, _⟩ => ⟨S8x1024x16x64, .f32⟩
  | .hbm, ⟨33, _⟩ => ⟨S8x1024x1024, .f32⟩
  | .hbm, ⟨34, _⟩ => ⟨S8x1024x1024, .f32⟩
  | .hbm, ⟨35, _⟩ => ⟨S1x1x1024, .f32⟩
  | .hbm, ⟨36, _⟩ => ⟨S8x1024x1024, .f32⟩
  | .hbm, ⟨37, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x3072_S8x1024x3x16x64 : S8x1024x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.DataI.lean ====
/-
  The proof data of the three kernel regions and the buffer contents between @main's items.

  Region 0 is the stacked query / key / value projection: at grid point (i, j) it multiplies block i of the reshaped
  input (1024 rows) by rows 128·j … 128·j + 127 of the projection and writes the product as block (⌊j/8⌋·8 + i, j mod 8)
  of a [24, 8, 1024, 128] array. Region 1 is the attention of one batch entry and one pair of heads: its three inputs
  are blocks of that one array (query, key, value), its output a [1, 1024, 128] block of an [8, 1024, 1024] array.
  Region 2 is the output projection of 1024 rows at a time, plus the bias.

  Each region's data are stated at a PARAMETER `V`, the buffer contents when the region is entered: the block a
  window reads at a point (`iblkK`), what the body leaves in the output window's buffer as a function of the input
  blocks (`outK_w`, the body's one store over the skeleton's payload), and the pipeline's proof data (`datK`). Then the
  contents at every boundary of @main (`W0` … `W6`): a host stretch applies its operations, a region replaces its
  one output array by what its write-backs leave.
-/
import proofs.«138104_j6004364280063_2_alg».proof.Proof.Gen.KernelIdeal.Launch
import proofs.«138104_j6004364280063_2_alg».proof.Proof.Gen.KernelIdeal.Skeleton
import proofs.«138104_j6004364280063_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1024x1024 := Rect.unit (s := S1024x1024) ![0, 0] S1024x1024.size inb_S1024x1024_S1024x1024_0_0
abbrev r0_w : Rect S128x1024 := Rect.unit (s := S128x1024) ![0, 0] S128x1024.size inb_S128x1024_S128x1024_0_0
abbrev r0_o : Rect S1x1x1024x128 := Rect.unit (s := S1x1x1024x128) ![0, 0, 0, 0] S1x1x1024x128.size inb_S1x1x1024x128_S1x1x1024x128_0_0_0_0

/-- The output block after the body: its one store, of the product of the two input blocks. -/
def out0_2 (x0 : Vec F S1024x1024 .f32) (x1 : Vec F S128x1024 .bf16) : Vec F S1x1x1024x128 .bf16 :=
  View.canon [⟨r0_o, k0_pay1 (View.ld x0 r0_x) (View.ld x1 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_i : Rect S1x1x1024x128 := Rect.unit (s := S1x1x1024x128) ![0, 0, 0, 0] S1x1x1024x128.size inb_S1x1x1024x128_S1x1x1024x128_0_0_0_0
abbrev r1_o : Rect S1x1024x128 := Rect.unit (s := S1x1024x128) ![0, 0, 0] S1x1024x128.size inb_S1x1024x128_S1x1024x128_0_0_0

/-- The output block after the body: its one store, the two heads' outputs side by side, from the query, key and
    value blocks. -/
def out1_3 (x0 x1 x2 : Vec F S1x1x1024x128 .bf16) : Vec F S1x1024x128 .bf16 :=
  View.canon [⟨r1_o, k1_pay1 (k1_pay5 (View.ld x0 r1_i) (View.ld x1 r1_i) (View.ld x2 r1_i)) (k1_pay6 (View.ld x2 r1_i)) (k1_pay7 (View.ld x0 r1_i) (View.ld x1 r1_i))⟩]

/-- The three input windows read one array: each holds a third share of it (a half, and the two halves of the other
    half); the output's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store, the product of the two blocks plus the bias row. -/
def out2_3 (x0 x1 : Vec F S1024x1024 .bf16) (x2 : Vec F S1x1024 .f32) : Vec F S1024x1024 .f32 :=
  View.canon [⟨r2_x, k2_pay1 (View.ld x0 r2_x) (View.ld x1 r2_x) (View.ld x2 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

end Regions

/-! ## The buffer contents at each boundary of @main -/

variable (m : (ℓ : Loc nD τ sig) → Buf (Elt F) ℓ)

/-- Core `c`'s buffers at launch. -/
abbrev W0 : Dev nD → Valuation τ sig (Elt F) := fun c b => m ((c : Dev nD), b)
/-- After the first host stretch (the two format changes and the reshape of the input): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: the projected array at what the write-backs leave, every other buffer as before. -/
def W2 (c : Dev nD) : Valuation τ sig (Elt F) :=
  Function.update (W1 m c) (Proc.devRef .tc main_v3) ((dat0 (V1 m) c).arrAt 2 cfg0.N)
abbrev V2 : (c : Dev nD) → (b : Ref sig .tc) → Buf (Elt F) ((c : Thread nD τ).loc b) := fun c b => W2 m c b
/-- After region 1: the attention output at what the write-backs leave. -/
def W3 (c : Dev nD) : Valuation τ sig (Elt F) :=
  Function.update (W2 m c) (Proc.devRef .tc main_v4) ((dat1 (V2 m) c).arrAt 3 cfg1.N)
/-- After the second host stretch (the reshapes of the attention output and of the bias): region 2's entry. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2. -/
def W5 (c : Dev nD) : Valuation τ sig (Elt F) :=
  Function.update (W4 m c) (Proc.devRef .tc main_v7) ((dat2 (V4 m) c).arrAt 3 cfg2.N)
/-- After the last host stretch (the reshape of the result). -/
abbrev W6 : Dev nD → Valuation τ sig (Elt F) := fun c => StableHlo.after hostOps3 (W5 m c)

/-- No pipeline has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c

end Cert.KernelIdeal.Att

end
-- ==== Proof.BodyI0.lean ====
/-
  Region 0 (the stacked projection): the body's triple on whole staging memrefs, and the pipeline's body obligation
  for the proof data `dat0 V`, at any entry contents `V`.
-/
import proofs.«138104_j6004364280063_2_alg».proof.Proof.DataI

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The output window's buffer after the body -/

/-- The body's one store covers the output buffer. -/
theorem cover0_2 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg0 : Memref sig .tc .vmem S1024x1024 .f32) (harg0 : arg0.IsWhole)
    (arg1 : Memref sig .tc .vmem S128x1024 .bf16) (harg1 : arg1.IsWhole) (arg2 : Memref sig .tc .vmem S1x1x1024x128 .bf16) (harg2 : arg2.IsWhole)
    (x0 : Vec F S1024x1024 .f32) (x1 : Vec F S128x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_matmul_kernel i arg0 harg0 arg1 harg1 arg2 harg2) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The proof data projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Att

end
-- ==== Proof.BodyI1.lean ====
/-
  Region 1 (the attention of one batch entry and one pair of heads): the body's triple on whole staging memrefs, and
  the pipeline's body obligation for the proof data `dat1 V`, at any entry contents `V`. The three input windows read one
  array; the body obligation speaks of their staging buffers only, each held whole.
-/
import proofs.«138104_j6004364280063_2_alg».proof.Proof.DataI

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The output window's buffer after the body -/

/-- The body's one store covers the output buffer. -/
theorem cover1_3 (p0 : Vec F S1x1024x128 .bf16) (y : S1x1024x128.Idx) :
    ∃ pc ∈ ([⟨r1_o, p0⟩] : List (View.Piece (Elt F) S1x1024x128 .bf16)), y ∈ pc.1.set :=
  View.cover_of_tiled [⟨r1_o, p0⟩] S1x1024x128.size (by rfl) y

/-! ## The body's triple -/

set_option maxHeartbeats 1000000 in
/-- The body on whole staging memrefs, the inputs' at contents `x0`, `x1`, `x2` and the output's at anything, runs —
    through its part call — to the continuation holding the inputs' as they were and the output's at `out1_3 x0 x1 x2`. -/
theorem sound_kernel1 (c : Dev nD) (E : Set ℕ) (i : grid1.Coords) (arg0 : Memref sig .tc .vmem S1x1x1024x128 .bf16) (harg0 : arg0.IsWhole)
    (arg1 : Memref sig .tc .vmem S1x1x1024x128 .bf16) (harg1 : arg1.IsWhole) (arg2 : Memref sig .tc .vmem S1x1x1024x128 .bf16) (harg2 : arg2.IsWhole)
    (arg3 : Memref sig .tc .vmem S1x1024x128 .bf16) (harg3 : arg3.IsWhole)
    (x0 x1 x2 : Vec F S1x1x1024x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The proof data projected -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Att

end
-- ==== Proof.BodyI2.lean ====
/-
  Region 2 (the output projection): the body's triple on whole staging memrefs, and the pipeline's body obligation
  for the proof data `dat2 V`, at any entry contents `V`.
-/
import proofs.«138104_j6004364280063_2_alg».proof.Proof.DataI

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The output window's buffer after the body -/

/-- The body's one store covers the output buffer. -/
theorem cover2_3 (p0 : Vec F S1024x1024 .f32) (y : S1024x1024.Idx) :
    ∃ pc ∈ ([⟨r2_x, p0⟩] : List (View.Piece (Elt F) S1024x1024 .f32)), y ∈ pc.1.set :=
  View.cover_of_tiled [⟨r2_x, p0⟩] S1024x1024.size (by rfl) y

/-! ## The body's triple -/

set_option maxHeartbeats 1000000 in
/-- The body on whole staging memrefs, the inputs' at contents `x0`, `x1`, `x2` and the output's at anything, runs to
    the continuation holding the inputs' as they were and the output's at `out2_3 x0 x1 x2`. -/
theorem sound_kernel2 (c : Dev nD) (E : Set ℕ) (i : grid2.Coords) (arg0 : Memref sig .tc .vmem S1024x1024 .bf16) (harg0 : arg0.IsWhole)
    (arg1 : Memref sig .tc .vmem S1024x1024 .bf16) (harg1 : arg1.IsWhole) (arg2 : Memref sig .tc .vmem S1x1024 .f32) (harg2 : arg2.IsWhole)
    (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The proof data projected -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Att

end
-- ==== Proof.SplitI1.lean ====
/-
  Region 1's arrays among the core's unscoped buffers. The three input windows of region 1 read ONE buffer (the
  projected array) and the output window writes another; the pipeline holds the first at three shares that make up the
  full share (a half, and the two halves of the other half) and the second whole. So at entry the buffer behind the
  inputs, held whole, is split twice along its share, and at exit the three parts, at equal contents, are joined back.
-/
import proofs.«138104_j6004364280063_2_alg».proof.Proof.DataI

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays: the projected array and the attention output. -/
theorem arrImage1 : Finset.univ.image (Pipeline.arrRef spec1) = ({main_v3, main_v4} : Finset (Ref sig .tc)) := by decide

/-- Those buffers, each whole at contents `X`, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v3) ↦{fullShare} X main_v3) ∗ (((c : Thread nD τ).loc main_v4) ↦{fullShare} X main_v4)) := by
  unfold Pipeline.arrBufs
  rw [arrImage1, bigSep_insert (by decide), bigSep_singleton]
  rfl

/-- The share the pipeline holds each window's array at. -/
theorem share1_0 (c : Dev nD) : (dat1 V c).share 0 = fullShare.left := by
  unfold Dat.share; rw [if_neg (by rw [show (cfg1.win 0).isOut = false from rfl]; exact Bool.false_ne_true)]; dsimp only [dat1]
theorem share1_1 (c : Dev nD) : (dat1 V c).share 1 = fullShare.right.left := by
  unfold Dat.share; rw [if_neg (by rw [show (cfg1.win 1).isOut = false from rfl]; exact Bool.false_ne_true)]; dsimp only [dat1]
theorem share1_2 (c : Dev nD) : (dat1 V c).share 2 = fullShare.right.right := by
  unfold Dat.share; rw [if_neg (by rw [show (cfg1.win 2).isOut = false from rfl]; exact Bool.false_ne_true)]; dsimp only [dat1]
theorem share1_3 (c : Dev nD) : (dat1 V c).share 3 = fullShare := by
  unfold Dat.share; rw [if_pos (show (cfg1.win 3).isOut = true from rfl)]

/-- The pipeline's arrays at contents `G`, window by window: three parts of the projected array and the whole output. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right.left} G 1)
          ∗ (((c : Thread nD τ).loc main_v3) ↦{fullShare.right.right} G 2) ∗ (((c : Thread nD τ).loc main_v4) ↦{fullShare} G 3)) := by
  unfold Dat.arrays
  rw [bigSep_W1, share1_0, share1_1, share1_2, share1_3, (arr_whole1 0).set_eq_univ, (arr_whole1 3).set_eq_univ]

/-- A buffer held whole is held at the three shares, -/
theorem pointsTo_split3 (ℓ : Loc nD τ sig) (f : ℓ.ty.Contents (Elt F)) :
    (ℓ ↦{fullShare} f : sProp 𝕄) ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  ihave H'' := (pointsTo_share (PosShare.mem_left_op_right fullShare.right)).1 $$ Hr
  icases H'' with ⟨Hrl, Hrr⟩
  isplitl [Hl]; · iexact Hl
  isplitl [Hrl]; · iexact Hrl
  iexact Hrr

/-- and the three shares at one contents make it whole again. -/
theorem pointsTo_join3 (ℓ : Loc nD τ sig) (f : ℓ.ty.Contents (Elt F)) :
    iprop((ℓ ↦{fullShare.left} f) ∗ (ℓ ↦{fullShare.right.left} f) ∗ ℓ ↦{fullShare.right.right} f) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- ENTRY: the core's unscoped buffers at the entry contents are the pipeline's arrays at the proof data's entry
    contents and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs (1 : Fin 3) winFacts₀1.arr_unscoped c (V c)
  rw [hs, arrBufs1_eq, arrays1_eq]
  iintro ⟨⟨H3, H4⟩, Hrest⟩
  ihave H := pointsTo_split3 _ _ $$ H3
  icases H with ⟨Hl, Hrl, Hrr⟩
  isplitr [Hrest]
  swap; · iexact Hrest
  isplitl [Hl]; · iexact Hl
  isplitl [Hrl]; · iexact Hrl
  isplitl [Hrr]; · iexact Hrr
  iexact H4

/-- EXIT: the pipeline's arrays at contents `G` — the three parts of the projected array at one contents — and the
    unscoped rest are the core's unscoped buffers at any contents `X'` that have the arrays at `G` and agree with the
    entry contents off them. -/
theorem unscopedBufs_of_arrays1 (c : Dev nD) (X' : (b : Ref sig .tc) → Buf (Elt F) ((c : Thread nD τ).loc b))
    (G : (w : Fin cfg1.W) → Buf (Elt F) ((cfg1.win w).arr.view.loc (c : Thread nD τ)))
    (hG : ∀ w, G w = X' (Pipeline.arrRef spec1 w))
    (hrest : ∀ b, b ∉ Finset.univ.image (Pipeline.arrRef spec1) → X' b = V c b) :
    iprop((dat1 V c).arrays G ∗ Pipeline.unscopedRest spec1 c (V c)) ⊢ (unscopedBufs c X' : sProp 𝕄) := by
  have hs : (unscopedBufs c X' : sProp 𝕄) = iprop(Pipeline.arrBufs spec1 c X' ∗ Pipeline.unscopedRest spec1 c X') :=
    Pipeline.unscopedBufs_split₀ cfgs (1 : Fin 3) winFacts₀1.arr_unscoped c X'
  rw [hs, arrBufs1_eq, arrays1_eq, hG 0, hG 1, hG 2, hG 3]
  have hr : (Pipeline.unscopedRest spec1 c (V c) : sProp 𝕄) = Pipeline.unscopedRest spec1 c X' := by
    unfold Pipeline.unscopedRest
    exact bigSep_congr fun b hb => by rw [hrest b (Finset.mem_sdiff.mp hb).2]
  rw [hr]
  iintro ⟨⟨Hl, Hrl, Hrr, H4⟩, Hrest⟩
  isplitr [Hrest]
  swap; · iexact Hrest
  isplitl [Hl Hrl Hrr]
  · iapply (pointsTo_join3 _ _)
    isplitl [Hl]; · iexact Hl
    isplitl [Hrl]; · iexact Hrl
    iexact Hrr
  iexact H4

end Cert.KernelIdeal.Att

end
-- ==== Proof.RunI.lean ====
/-
  THE RUN. @main is a host stretch, region 0, region 1, a host stretch, region 2 and a host stretch. Between two items a
  core holds every unscoped buffer whole at the boundary's contents (`W0` … `W6`), its generator register at some state,
  and owes nothing. A host stretch runs over those buffers; a region takes its arrays out of them at entry and puts them
  back at exit at the contents its write-backs leave. Region 1's three input windows read one buffer, which is split
  three ways along its share at entry and joined at exit. The run ends with every unscoped buffer at `W6`, and the
  argument arrays, which nothing writes, hold their launch contents there.
-/
import proofs.«138104_j6004364280063_2_alg».proof.Proof.BodyI0
import proofs.«138104_j6004364280063_2_alg».proof.Proof.BodyI1
import proofs.«138104_j6004364280063_2_alg».proof.Proof.BodyI2
import proofs.«138104_j6004364280063_2_alg».proof.Proof.SplitI1
import proofs.«138104_j6004364280063_2_alg».proof.Proof.Gen.KernelIdeal.Regions

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 1's exit contents read at the TensorCore's references. -/
abbrev V3 : (c : Dev nD) → (b : Ref sig .tc) → Buf (Elt F) ((c : Thread nD τ).loc b) := fun c b => W3 m c b
/-- Region 2's exit contents read at the TensorCore's references. -/
abbrev V5 : (c : Dev nD) → (b : Ref sig .tc) → Buf (Elt F) ((c : Thread nD τ).loc b) := fun c b => W5 m c b

/-! ## Each region's exit contents: its arrays at what the pipeline leaves, every other buffer as at entry -/

theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans
      (Function.update_of_ne (StableHlo.devRef_ne_of_ne (by decide)) _ _).symm)
  | ⟨1, _⟩ => ((dat0 (V1 m) c).arrAt_in 1 rfl _).trans ((A_eq0 (V1 m) c 1).trans
      (Function.update_of_ne (StableHlo.devRef_ne_of_ne (by decide)) _ _).symm)
  | ⟨2, _⟩ => by
    show _ = W2 m c (Proc.devRef .tc main_v3)
    unfold W2
    rw [Function.update_self]
    rfl
theorem hrest0 (c : Dev nD) : ∀ b, b ∉ Finset.univ.image (Pipeline.arrRef spec0) → V2 m c b = V1 m c b :=
  fun b hb => Function.update_of_ne (StableHlo.devRef_ne_of_ne fun e =>
    hb (Finset.mem_image.mpr ⟨2, Finset.mem_univ _, (e.symm : Pipeline.arrRef spec0 2 = b)⟩)) _ _

theorem hF1 (c : Dev nD) (w : Fin cfg1.W) : (dat1 (V2 m) c).arrAt w cfg1.N = V3 m c (Pipeline.arrRef spec1 w) :=
  match w with
  | ⟨0, _⟩ => ((dat1 (V2 m) c).arrAt_in 0 rfl _).trans ((A_eq1 (V2 m) c 0).trans
      (Function.update_of_ne (StableHlo.devRef_ne_of_ne (by decide)) _ _).symm)
  | ⟨1, _⟩ => ((dat1 (V2 m) c).arrAt_in 1 rfl _).trans ((A_eq1 (V2 m) c 1).trans
      (Function.update_of_ne (StableHlo.devRef_ne_of_ne (by decide)) _ _).symm)
  | ⟨2, _⟩ => ((dat1 (V2 m) c).arrAt_in 2 rfl _).trans ((A_eq1 (V2 m) c 2).trans
      (Function.update_of_ne (StableHlo.devRef_ne_of_ne (by decide)) _ _).symm)
  | ⟨3, _⟩ => by
    show _ = W3 m c (Proc.devRef .tc main_v4)
    unfold W3
    rw [Function.update_self]
    rfl
theorem hrest1 (c : Dev nD) : ∀ b, b ∉ Finset.univ.image (Pipeline.arrRef spec1) → V3 m c b = V2 m c b :=
  fun b hb => Function.update_of_ne (StableHlo.devRef_ne_of_ne fun e =>
    hb (Finset.mem_image.mpr ⟨3, Finset.mem_univ _, (e.symm : Pipeline.arrRef spec1 3 = b)⟩)) _ _

theorem hF2 (c : Dev nD) (w : Fin cfg2.W) : (dat2 (V4 m) c).arrAt w cfg2.N = V5 m c (Pipeline.arrRef spec2 w) :=
  match w with
  | ⟨0, _⟩ => ((dat2 (V4 m) c).arrAt_in 0 rfl _).trans ((A_eq2 (V4 m) c 0).trans
      (Function.update_of_ne (StableHlo.devRef_ne_of_ne (by decide)) _ _).symm)
  | ⟨1, _⟩ => ((dat2 (V4 m) c).arrAt_in 1 rfl _).trans ((A_eq2 (V4 m) c 1).trans
      (Function.update_of_ne (StableHlo.devRef_ne_of_ne (by decide)) _ _).symm)
  | ⟨2, _⟩ => ((dat2 (V4 m) c).arrAt_in 2 rfl _).trans ((A_eq2 (V4 m) c 2).trans
      (Function.update_of_ne (StableHlo.devRef_ne_of_ne (by decide)) _ _).symm)
  | ⟨3, _⟩ => by
    show _ = W5 m c (Proc.devRef .tc main_v7)
    unfold W5
    rw [Function.update_self]
    rfl
theorem hrest2 (c : Dev nD) : ∀ b, b ∉ Finset.univ.image (Pipeline.arrRef spec2) → V5 m c b = V4 m c b :=
  fun b hb => Function.update_of_ne (StableHlo.devRef_ne_of_ne fun e =>
    hb (Finset.mem_image.mpr ⟨3, Finset.mem_univ _, (e.symm : Pipeline.arrRef spec2 3 = b)⟩)) _ _

/-! ## The arguments end as launched: no host operation writes one and no region's output is one -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ Gen.hostOps3_writes (by decide)
    _ = W4 m c (Proc.devRef .tc main_arg0) := Function.update_of_ne (StableHlo.devRef_ne_of_ne (by decide)) _ _
    _ = W3 m c (Proc.devRef .tc main_arg0) := StableHlo.after_of_writes_sub hostOps2 _ Gen.hostOps2_writes (by decide)
    _ = W2 m c (Proc.devRef .tc main_arg0) := Function.update_of_ne (StableHlo.devRef_ne_of_ne (by decide)) _ _
    _ = W1 m c (Proc.devRef .tc main_arg0) := Function.update_of_ne (StableHlo.devRef_ne_of_ne (by decide)) _ _
    _ = W0 m c (Proc.devRef .tc main_arg0) := StableHlo.after_of_writes_sub hostOps0 _ Gen.hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ Gen.hostOps3_writes (by decide)
    _ = W4 m c (Proc.devRef .tc main_arg1) := Function.update_of_ne (StableHlo.devRef_ne_of_ne (by decide)) _ _
    _ = W3 m c (Proc.devRef .tc main_arg1) := StableHlo.after_of_writes_sub hostOps2 _ Gen.hostOps2_writes (by decide)
    _ = W2 m c (Proc.devRef .tc main_arg1) := Function.update_of_ne (StableHlo.devRef_ne_of_ne (by decide)) _ _
    _ = W1 m c (Proc.devRef .tc main_arg1) := Function.update_of_ne (StableHlo.devRef_ne_of_ne (by decide)) _ _
    _ = W0 m c (Proc.devRef .tc main_arg1) := StableHlo.after_of_writes_sub hostOps0 _ Gen.hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ Gen.hostOps3_writes (by decide)
    _ = W4 m c (Proc.devRef .tc main_arg2) := Function.update_of_ne (StableHlo.devRef_ne_of_ne (by decide)) _ _
    _ = W3 m c (Proc.devRef .tc main_arg2) := StableHlo.after_of_writes_sub hostOps2 _ Gen.hostOps2_writes (by decide)
    _ = W2 m c (Proc.devRef .tc main_arg2) := Function.update_of_ne (StableHlo.devRef_ne_of_ne (by decide)) _ _
    _ = W1 m c (Proc.devRef .tc main_arg2) := Function.update_of_ne (StableHlo.devRef_ne_of_ne (by decide)) _ _
    _ = W0 m c (Proc.devRef .tc main_arg2) := StableHlo.after_of_writes_sub hostOps0 _ Gen.hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ Gen.hostOps3_writes (by decide)
    _ = W4 m c (Proc.devRef .tc main_arg3) := Function.update_of_ne (StableHlo.devRef_ne_of_ne (by decide)) _ _
    _ = W3 m c (Proc.devRef .tc main_arg3) := StableHlo.after_of_writes_sub hostOps2 _ Gen.hostOps2_writes (by decide)
    _ = W2 m c (Proc.devRef .tc main_arg3) := Function.update_of_ne (StableHlo.devRef_ne_of_ne (by decide)) _ _
    _ = W1 m c (Proc.devRef .tc main_arg3) := Function.update_of_ne (StableHlo.devRef_ne_of_ne (by decide)) _ _
    _ = W0 m c (Proc.devRef .tc main_arg3) := StableHlo.after_of_writes_sub hostOps0 _ Gen.hostOps0_writes (by decide)
    _ = m ((c : Thread nD τ).loc main_arg3) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W6`, the generator register at some state. -/
abbrev Tₙ (c : Dev nD) : sProp 𝕄 := iprop(StableHlo.held (c : Thread nD τ) (Pipeline.ucRefs τ sig) (W6 m c) ∗ ∃ r, prngReg c r)

/-- The last host stretch's thread state is the last thread state beside the core owing nothing. -/
theorem lastChain (c : Dev nD) :
    iprop(StableHlo.held (c : Thread nD τ) (Pipeline.ucRefs τ sig) (W6 m c) ∗ R c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over the pinned configuration unifies with the printed one only when unification may
-- unfold plain definitions in a metavariable's type
set_option backward.isDefEq.respectTransparency.types false in
/-- Region 0 over the thread state: its arrays split out of the unscoped buffers at entry and put back at the exit
    contents; the generator register into the class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- Region 1 over the thread state. Its windows share an array, so the arrays' part of the entry and of the exit is
    the split and join of `arrays1_of_unscopedBufs` / `unscopedBufs_of_arrays1`; the rest as for the other regions. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) :=
      arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) :=
      unscopedBufs_of_arrays1 (V2 m) c (V3 m c) ((dat1 (V2 m) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: its arrays split out of the unscoped buffers at entry and put back at the exit
    contents; the generator register into the class invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub Gen.hostOps0_fresh (W0 m)),
    .region (reg0 m),
    .region (reg1 m),
    .host (hseg hostOps2 hostOps2_sub Gen.hostOps2_fresh (W3 m)),
    .region (reg2 m),
    .host (hseg hostOps3 hostOps3_sub Gen.hostOps3_fresh (W5 m)) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and in every final state each unscoped buffer holds `W6`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => lastChain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Att

end
-- ==== Proof.DataB.lean ====
/-
  The proof data of the three kernel regions and the buffer contents between @main's items.

  Region 0 is the stacked query / key / value projection: at grid point (i, j) it multiplies block i of the reshaped
  input (1024 rows) by rows 128·j … 128·j + 127 of the projection and writes the product as block (⌊j/8⌋·8 + i, j mod 8)
  of a [24, 8, 1024, 128] array. Region 1 is the attention of one batch entry and one pair of heads: its three inputs
  are blocks of that one array (query, key, value), its output a [1, 1024, 128] block of an [8, 1024, 1024] array.
  Region 2 is the output projection of 1024 rows at a time, plus the bias.

  Each region's data are stated at a PARAMETER `V`, the buffer contents when the region is entered: the block a
  window reads at a point (`iblkK`), what the body leaves in the output window's buffer as a function of the input
  blocks (`outK_w`, the body's one store over the skeleton's payload), and the pipeline's proof data (`datK`). Then the
  contents at every boundary of @main (`W0` … `W6`): a host stretch applies its operations, a region replaces its
  one output array by what its write-backs leave.
-/
import proofs.«138104_j6004364280063_2_alg».proof.Proof.Gen.Kernel.Launch
import proofs.«138104_j6004364280063_2_alg».proof.Proof.Gen.Kernel.Skeleton
import proofs.«138104_j6004364280063_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1024x1024 := Rect.unit (s := S1024x1024) ![0, 0] S1024x1024.size inb_S1024x1024_S1024x1024_0_0
abbrev r0_w : Rect S128x1024 := Rect.unit (s := S128x1024) ![0, 0] S128x1024.size inb_S128x1024_S128x1024_0_0
abbrev r0_o : Rect S1x1x1024x128 := Rect.unit (s := S1x1x1024x128) ![0, 0, 0, 0] S1x1x1024x128.size inb_S1x1x1024x128_S1x1x1024x128_0_0_0_0

/-- The output block after the body: its one store, of the product of the two input blocks. -/
def out0_2 (x0 : Vec F S1024x1024 .f32) (x1 : Vec F S128x1024 .bf16) : Vec F S1x1x1024x128 .bf16 :=
  View.canon [⟨r0_o, k0_pay1 (View.ld x0 r0_x) (View.ld x1 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_i : Rect S1x1x1024x128 := Rect.unit (s := S1x1x1024x128) ![0, 0, 0, 0] S1x1x1024x128.size inb_S1x1x1024x128_S1x1x1024x128_0_0_0_0
abbrev r1_o : Rect S1x1024x128 := Rect.unit (s := S1x1024x128) ![0, 0, 0] S1x1024x128.size inb_S1x1024x128_S1x1024x128_0_0_0

/-- The output block after the body: its one store, the two heads' outputs side by side, from the query, key and
    value blocks. -/
def out1_3 (x0 x1 x2 : Vec F S1x1x1024x128 .bf16) : Vec F S1x1024x128 .bf16 :=
  View.canon [⟨r1_o, k1_pay1 (k1_pay5 (View.ld x0 r1_i) (View.ld x1 r1_i) (View.ld x2 r1_i)) (k1_pay6 (View.ld x2 r1_i)) (k1_pay7 (View.ld x0 r1_i) (View.ld x1 r1_i))⟩]

/-- The three input windows read one array: each holds a third share of it (a half, and the two halves of the other
    half); the output's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store, the product of the two blocks plus the bias row. -/
def out2_3 (x0 x1 : Vec F S1024x1024 .bf16) (x2 : Vec F S1x1024 .f32) : Vec F S1024x1024 .f32 :=
  View.canon [⟨r2_x, k2_pay1 (View.ld x0 r2_x) (View.ld x1 r2_x) (View.ld x2 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

end Regions

/-! ## The buffer contents at each boundary of @main -/

variable (m : (ℓ : Loc nD τ sig) → Buf (Elt F) ℓ)

/-- Core `c`'s buffers at launch. -/
abbrev W0 : Dev nD → Valuation τ sig (Elt F) := fun c b => m ((c : Dev nD), b)
/-- After the first host stretch (the two format changes and the reshape of the input): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: the projected array at what the write-backs leave, every other buffer as before. -/
def W2 (c : Dev nD) : Valuation τ sig (Elt F) :=
  Function.update (W1 m c) (Proc.devRef .tc main_v3) ((dat0 (V1 m) c).arrAt 2 cfg0.N)
abbrev V2 : (c : Dev nD) → (b : Ref sig .tc) → Buf (Elt F) ((c : Thread nD τ).loc b) := fun c b => W2 m c b
/-- After region 1: the attention output at what the write-backs leave. -/
def W3 (c : Dev nD) : Valuation τ sig (Elt F) :=
  Function.update (W2 m c) (Proc.devRef .tc main_v4) ((dat1 (V2 m) c).arrAt 3 cfg1.N)
/-- After the second host stretch (the reshapes of the attention output and of the bias): region 2's entry. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2. -/
def W5 (c : Dev nD) : Valuation τ sig (Elt F) :=
  Function.update (W4 m c) (Proc.devRef .tc main_v7) ((dat2 (V4 m) c).arrAt 3 cfg2.N)
/-- After the last host stretch (the reshape of the result). -/
abbrev W6 : Dev nD → Valuation τ sig (Elt F) := fun c => StableHlo.after hostOps3 (W5 m c)

/-- No pipeline has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c

end Cert.Kernel.Att

end
-- ==== Proof.BodyB0.lean ====
/-
  Region 0 (the stacked projection): the body's triple on whole staging memrefs, and the pipeline's body obligation
  for the proof data `dat0 V`, at any entry contents `V`.
-/
import proofs.«138104_j6004364280063_2_alg».proof.Proof.DataB

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The output window's buffer after the body -/

/-- The body's one store covers the output buffer. -/
theorem cover0_2 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg0 : Memref sig .tc .vmem S1024x1024 .f32) (harg0 : arg0.IsWhole)
    (arg1 : Memref sig .tc .vmem S128x1024 .bf16) (harg1 : arg1.IsWhole) (arg2 : Memref sig .tc .vmem S1x1x1024x128 .bf16) (harg2 : arg2.IsWhole)
    (x0 : Vec F S1024x1024 .f32) (x1 : Vec F S128x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_matmul_kernel i arg0 harg0 arg1 harg1 arg2 harg2) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The proof data projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Att

end
-- ==== Proof.BodyB1.lean ====
/-
  Region 1 (the attention of one batch entry and one pair of heads): the body's triple on whole staging memrefs, and
  the pipeline's body obligation for the proof data `dat1 V`, at any entry contents `V`. The three input windows read one
  array; the body obligation speaks of their staging buffers only, each held whole.
-/
import proofs.«138104_j6004364280063_2_alg».proof.Proof.DataB

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The output window's buffer after the body -/

/-- The body's one store covers the output buffer. -/
theorem cover1_3 (p0 : Vec F S1x1024x128 .bf16) (y : S1x1024x128.Idx) :
    ∃ pc ∈ ([⟨r1_o, p0⟩] : List (View.Piece (Elt F) S1x1024x128 .bf16)), y ∈ pc.1.set :=
  View.cover_of_tiled [⟨r1_o, p0⟩] S1x1024x128.size (by rfl) y

/-! ## The body's triple -/

set_option maxHeartbeats 1000000 in
/-- The body on whole staging memrefs, the inputs' at contents `x0`, `x1`, `x2` and the output's at anything, runs —
    through its part call — to the continuation holding the inputs' as they were and the output's at `out1_3 x0 x1 x2`. -/
theorem sound_kernel1 (c : Dev nD) (E : Set ℕ) (i : grid1.Coords) (arg0 : Memref sig .tc .vmem S1x1x1024x128 .bf16) (harg0 : arg0.IsWhole)
    (arg1 : Memref sig .tc .vmem S1x1x1024x128 .bf16) (harg1 : arg1.IsWhole) (arg2 : Memref sig .tc .vmem S1x1x1024x128 .bf16) (harg2 : arg2.IsWhole)
    (arg3 : Memref sig .tc .vmem S1x1024x128 .bf16) (harg3 : arg3.IsWhole)
    (x0 x1 x2 : Vec F S1x1x1024x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The proof data projected -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Att

end
-- ==== Proof.BodyB2.lean ====
/-
  Region 2 (the output projection): the body's triple on whole staging memrefs, and the pipeline's body obligation
  for the proof data `dat2 V`, at any entry contents `V`.
-/
import proofs.«138104_j6004364280063_2_alg».proof.Proof.DataB

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The output window's buffer after the body -/

/-- The body's one store covers the output buffer. -/
theorem cover2_3 (p0 : Vec F S1024x1024 .f32) (y : S1024x1024.Idx) :
    ∃ pc ∈ ([⟨r2_x, p0⟩] : List (View.Piece (Elt F) S1024x1024 .f32)), y ∈ pc.1.set :=
  View.cover_of_tiled [⟨r2_x, p0⟩] S1024x1024.size (by rfl) y

/-! ## The body's triple -/

set_option maxHeartbeats 1000000 in
/-- The body on whole staging memrefs, the inputs' at contents `x0`, `x1`, `x2` and the output's at anything, runs to
    the continuation holding the inputs' as they were and the output's at `out2_3 x0 x1 x2`. -/
theorem sound_kernel2 (c : Dev nD) (E : Set ℕ) (i : grid2.Coords) (arg0 : Memref sig .tc .vmem S1024x1024 .bf16) (harg0 : arg0.IsWhole)
    (arg1 : Memref sig .tc .vmem S1024x1024 .bf16) (harg1 : arg1.IsWhole) (arg2 : Memref sig .tc .vmem S1x1024 .f32) (harg2 : arg2.IsWhole)
    (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The proof data projected -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Att

end
-- ==== Proof.SplitB1.lean ====
/-
  Region 1's arrays among the core's unscoped buffers. The three input windows of region 1 read ONE buffer (the
  projected array) and the output window writes another; the pipeline holds the first at three shares that make up the
  full share (a half, and the two halves of the other half) and the second whole. So at entry the buffer behind the
  inputs, held whole, is split twice along its share, and at exit the three parts, at equal contents, are joined back.
-/
import proofs.«138104_j6004364280063_2_alg».proof.Proof.DataB

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays: the projected array and the attention output. -/
theorem arrImage1 : Finset.univ.image (Pipeline.arrRef spec1) = ({main_v3, main_v4} : Finset (Ref sig .tc)) := by decide

/-- Those buffers, each whole at contents `X`, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v3) ↦{fullShare} X main_v3) ∗ (((c : Thread nD τ).loc main_v4) ↦{fullShare} X main_v4)) := by
  unfold Pipeline.arrBufs
  rw [arrImage1, bigSep_insert (by decide), bigSep_singleton]
  rfl

/-- The share the pipeline holds each window's array at. -/
theorem share1_0 (c : Dev nD) : (dat1 V c).share 0 = fullShare.left := by
  unfold Dat.share; rw [if_neg (by rw [show (cfg1.win 0).isOut = false from rfl]; exact Bool.false_ne_true)]; dsimp only [dat1]
theorem share1_1 (c : Dev nD) : (dat1 V c).share 1 = fullShare.right.left := by
  unfold Dat.share; rw [if_neg (by rw [show (cfg1.win 1).isOut = false from rfl]; exact Bool.false_ne_true)]; dsimp only [dat1]
theorem share1_2 (c : Dev nD) : (dat1 V c).share 2 = fullShare.right.right := by
  unfold Dat.share; rw [if_neg (by rw [show (cfg1.win 2).isOut = false from rfl]; exact Bool.false_ne_true)]; dsimp only [dat1]
theorem share1_3 (c : Dev nD) : (dat1 V c).share 3 = fullShare := by
  unfold Dat.share; rw [if_pos (show (cfg1.win 3).isOut = true from rfl)]

/-- The pipeline's arrays at contents `G`, window by window: three parts of the projected array and the whole output. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right.left} G 1)
          ∗ (((c : Thread nD τ).loc main_v3) ↦{fullShare.right.right} G 2) ∗ (((c : Thread nD τ).loc main_v4) ↦{fullShare} G 3)) := by
  unfold Dat.arrays
  rw [bigSep_W1, share1_0, share1_1, share1_2, share1_3, (arr_whole1 0).set_eq_univ, (arr_whole1 3).set_eq_univ]

/-- A buffer held whole is held at the three shares, -/
theorem pointsTo_split3 (ℓ : Loc nD τ sig) (f : ℓ.ty.Contents (Elt F)) :
    (ℓ ↦{fullShare} f : sProp 𝕄) ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  ihave H'' := (pointsTo_share (PosShare.mem_left_op_right fullShare.right)).1 $$ Hr
  icases H'' with ⟨Hrl, Hrr⟩
  isplitl [Hl]; · iexact Hl
  isplitl [Hrl]; · iexact Hrl
  iexact Hrr

/-- and the three shares at one contents make it whole again. -/
theorem pointsTo_join3 (ℓ : Loc nD τ sig) (f : ℓ.ty.Contents (Elt F)) :
    iprop((ℓ ↦{fullShare.left} f) ∗ (ℓ ↦{fullShare.right.left} f) ∗ ℓ ↦{fullShare.right.right} f) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- ENTRY: the core's unscoped buffers at the entry contents are the pipeline's arrays at the proof data's entry
    contents and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs (1 : Fin 3) winFacts₀1.arr_unscoped c (V c)
  rw [hs, arrBufs1_eq, arrays1_eq]
  iintro ⟨⟨H3, H4⟩, Hrest⟩
  ihave H := pointsTo_split3 _ _ $$ H3
  icases H with ⟨Hl, Hrl, Hrr⟩
  isplitr [Hrest]
  swap; · iexact Hrest
  isplitl [Hl]; · iexact Hl
  isplitl [Hrl]; · iexact Hrl
  isplitl [Hrr]; · iexact Hrr
  iexact H4

/-- EXIT: the pipeline's arrays at contents `G` — the three parts of the projected array at one contents — and the
    unscoped rest are the core's unscoped buffers at any contents `X'` that have the arrays at `G` and agree with the
    entry contents off them. -/
theorem unscopedBufs_of_arrays1 (c : Dev nD) (X' : (b : Ref sig .tc) → Buf (Elt F) ((c : Thread nD τ).loc b))
    (G : (w : Fin cfg1.W) → Buf (Elt F) ((cfg1.win w).arr.view.loc (c : Thread nD τ)))
    (hG : ∀ w, G w = X' (Pipeline.arrRef spec1 w))
    (hrest : ∀ b, b ∉ Finset.univ.image (Pipeline.arrRef spec1) → X' b = V c b) :
    iprop((dat1 V c).arrays G ∗ Pipeline.unscopedRest spec1 c (V c)) ⊢ (unscopedBufs c X' : sProp 𝕄) := by
  have hs : (unscopedBufs c X' : sProp 𝕄) = iprop(Pipeline.arrBufs spec1 c X' ∗ Pipeline.unscopedRest spec1 c X') :=
    Pipeline.unscopedBufs_split₀ cfgs (1 : Fin 3) winFacts₀1.arr_unscoped c X'
  rw [hs, arrBufs1_eq, arrays1_eq, hG 0, hG 1, hG 2, hG 3]
  have hr : (Pipeline.unscopedRest spec1 c (V c) : sProp 𝕄) = Pipeline.unscopedRest spec1 c X' := by
    unfold Pipeline.unscopedRest
    exact bigSep_congr fun b hb => by rw [hrest b (Finset.mem_sdiff.mp hb).2]
  rw [hr]
  iintro ⟨⟨Hl, Hrl, Hrr, H4⟩, Hrest⟩
  isplitr [Hrest]
  swap; · iexact Hrest
  isplitl [Hl Hrl Hrr]
  · iapply (pointsTo_join3 _ _)
    isplitl [Hl]; · iexact Hl
    isplitl [Hrl]; · iexact Hrl
    iexact Hrr
  iexact H4

end Cert.Kernel.Att

end
-- ==== Proof.RunB.lean ====
/-
  THE RUN. @main is a host stretch, region 0, region 1, a host stretch, region 2 and a host stretch. Between two items a
  core holds every unscoped buffer whole at the boundary's contents (`W0` … `W6`), its generator register at some state,
  and owes nothing. A host stretch runs over those buffers; a region takes its arrays out of them at entry and puts them
  back at exit at the contents its write-backs leave. Region 1's three input windows read one buffer, which is split
  three ways along its share at entry and joined at exit. The run ends with every unscoped buffer at `W6`, and the
  argument arrays, which nothing writes, hold their launch contents there.
-/
import proofs.«138104_j6004364280063_2_alg».proof.Proof.BodyB0
import proofs.«138104_j6004364280063_2_alg».proof.Proof.BodyB1
import proofs.«138104_j6004364280063_2_alg».proof.Proof.BodyB2
import proofs.«138104_j6004364280063_2_alg».proof.Proof.SplitB1
import proofs.«138104_j6004364280063_2_alg».proof.Proof.Gen.Kernel.Regions

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 1's exit contents read at the TensorCore's references. -/
abbrev V3 : (c : Dev nD) → (b : Ref sig .tc) → Buf (Elt F) ((c : Thread nD τ).loc b) := fun c b => W3 m c b
/-- Region 2's exit contents read at the TensorCore's references. -/
abbrev V5 : (c : Dev nD) → (b : Ref sig .tc) → Buf (Elt F) ((c : Thread nD τ).loc b) := fun c b => W5 m c b

/-! ## Each region's exit contents: its arrays at what the pipeline leaves, every other buffer as at entry -/

theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans
      (Function.update_of_ne (StableHlo.devRef_ne_of_ne (by decide)) _ _).symm)
  | ⟨1, _⟩ => ((dat0 (V1 m) c).arrAt_in 1 rfl _).trans ((A_eq0 (V1 m) c 1).trans
      (Function.update_of_ne (StableHlo.devRef_ne_of_ne (by decide)) _ _).symm)
  | ⟨2, _⟩ => by
    show _ = W2 m c (Proc.devRef .tc main_v3)
    unfold W2
    rw [Function.update_self]
    rfl
theorem hrest0 (c : Dev nD) : ∀ b, b ∉ Finset.univ.image (Pipeline.arrRef spec0) → V2 m c b = V1 m c b :=
  fun b hb => Function.update_of_ne (StableHlo.devRef_ne_of_ne fun e =>
    hb (Finset.mem_image.mpr ⟨2, Finset.mem_univ _, (e.symm : Pipeline.arrRef spec0 2 = b)⟩)) _ _

theorem hF1 (c : Dev nD) (w : Fin cfg1.W) : (dat1 (V2 m) c).arrAt w cfg1.N = V3 m c (Pipeline.arrRef spec1 w) :=
  match w with
  | ⟨0, _⟩ => ((dat1 (V2 m) c).arrAt_in 0 rfl _).trans ((A_eq1 (V2 m) c 0).trans
      (Function.update_of_ne (StableHlo.devRef_ne_of_ne (by decide)) _ _).symm)
  | ⟨1, _⟩ => ((dat1 (V2 m) c).arrAt_in 1 rfl _).trans ((A_eq1 (V2 m) c 1).trans
      (Function.update_of_ne (StableHlo.devRef_ne_of_ne (by decide)) _ _).symm)
  | ⟨2, _⟩ => ((dat1 (V2 m) c).arrAt_in 2 rfl _).trans ((A_eq1 (V2 m) c 2).trans
      (Function.update_of_ne (StableHlo.devRef_ne_of_ne (by decide)) _ _).symm)
  | ⟨3, _⟩ => by
    show _ = W3 m c (Proc.devRef .tc main_v4)
    unfold W3
    rw [Function.update_self]
    rfl
theorem hrest1 (c : Dev nD) : ∀ b, b ∉ Finset.univ.image (Pipeline.arrRef spec1) → V3 m c b = V2 m c b :=
  fun b hb => Function.update_of_ne (StableHlo.devRef_ne_of_ne fun e =>
    hb (Finset.mem_image.mpr ⟨3, Finset.mem_univ _, (e.symm : Pipeline.arrRef spec1 3 = b)⟩)) _ _

theorem hF2 (c : Dev nD) (w : Fin cfg2.W) : (dat2 (V4 m) c).arrAt w cfg2.N = V5 m c (Pipeline.arrRef spec2 w) :=
  match w with
  | ⟨0, _⟩ => ((dat2 (V4 m) c).arrAt_in 0 rfl _).trans ((A_eq2 (V4 m) c 0).trans
      (Function.update_of_ne (StableHlo.devRef_ne_of_ne (by decide)) _ _).symm)
  | ⟨1, _⟩ => ((dat2 (V4 m) c).arrAt_in 1 rfl _).trans ((A_eq2 (V4 m) c 1).trans
      (Function.update_of_ne (StableHlo.devRef_ne_of_ne (by decide)) _ _).symm)
  | ⟨2, _⟩ => ((dat2 (V4 m) c).arrAt_in 2 rfl _).trans ((A_eq2 (V4 m) c 2).trans
      (Function.update_of_ne (StableHlo.devRef_ne_of_ne (by decide)) _ _).symm)
  | ⟨3, _⟩ => by
    show _ = W5 m c (Proc.devRef .tc main_v7)
    unfold W5
    rw [Function.update_self]
    rfl
theorem hrest2 (c : Dev nD) : ∀ b, b ∉ Finset.univ.image (Pipeline.arrRef spec2) → V5 m c b = V4 m c b :=
  fun b hb => Function.update_of_ne (StableHlo.devRef_ne_of_ne fun e =>
    hb (Finset.mem_image.mpr ⟨3, Finset.mem_univ _, (e.symm : Pipeline.arrRef spec2 3 = b)⟩)) _ _

/-! ## The arguments end as launched: no host operation writes one and no region's output is one -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ Gen.hostOps3_writes (by decide)
    _ = W4 m c (Proc.devRef .tc main_arg0) := Function.update_of_ne (StableHlo.devRef_ne_of_ne (by decide)) _ _
    _ = W3 m c (Proc.devRef .tc main_arg0) := StableHlo.after_of_writes_sub hostOps2 _ Gen.hostOps2_writes (by decide)
    _ = W2 m c (Proc.devRef .tc main_arg0) := Function.update_of_ne (StableHlo.devRef_ne_of_ne (by decide)) _ _
    _ = W1 m c (Proc.devRef .tc main_arg0) := Function.update_of_ne (StableHlo.devRef_ne_of_ne (by decide)) _ _
    _ = W0 m c (Proc.devRef .tc main_arg0) := StableHlo.after_of_writes_sub hostOps0 _ Gen.hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ Gen.hostOps3_writes (by decide)
    _ = W4 m c (Proc.devRef .tc main_arg1) := Function.update_of_ne (StableHlo.devRef_ne_of_ne (by decide)) _ _
    _ = W3 m c (Proc.devRef .tc main_arg1) := StableHlo.after_of_writes_sub hostOps2 _ Gen.hostOps2_writes (by decide)
    _ = W2 m c (Proc.devRef .tc main_arg1) := Function.update_of_ne (StableHlo.devRef_ne_of_ne (by decide)) _ _
    _ = W1 m c (Proc.devRef .tc main_arg1) := Function.update_of_ne (StableHlo.devRef_ne_of_ne (by decide)) _ _
    _ = W0 m c (Proc.devRef .tc main_arg1) := StableHlo.after_of_writes_sub hostOps0 _ Gen.hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ Gen.hostOps3_writes (by decide)
    _ = W4 m c (Proc.devRef .tc main_arg2) := Function.update_of_ne (StableHlo.devRef_ne_of_ne (by decide)) _ _
    _ = W3 m c (Proc.devRef .tc main_arg2) := StableHlo.after_of_writes_sub hostOps2 _ Gen.hostOps2_writes (by decide)
    _ = W2 m c (Proc.devRef .tc main_arg2) := Function.update_of_ne (StableHlo.devRef_ne_of_ne (by decide)) _ _
    _ = W1 m c (Proc.devRef .tc main_arg2) := Function.update_of_ne (StableHlo.devRef_ne_of_ne (by decide)) _ _
    _ = W0 m c (Proc.devRef .tc main_arg2) := StableHlo.after_of_writes_sub hostOps0 _ Gen.hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ Gen.hostOps3_writes (by decide)
    _ = W4 m c (Proc.devRef .tc main_arg3) := Function.update_of_ne (StableHlo.devRef_ne_of_ne (by decide)) _ _
    _ = W3 m c (Proc.devRef .tc main_arg3) := StableHlo.after_of_writes_sub hostOps2 _ Gen.hostOps2_writes (by decide)
    _ = W2 m c (Proc.devRef .tc main_arg3) := Function.update_of_ne (StableHlo.devRef_ne_of_ne (by decide)) _ _
    _ = W1 m c (Proc.devRef .tc main_arg3) := Function.update_of_ne (StableHlo.devRef_ne_of_ne (by decide)) _ _
    _ = W0 m c (Proc.devRef .tc main_arg3) := StableHlo.after_of_writes_sub hostOps0 _ Gen.hostOps0_writes (by decide)
    _ = m ((c : Thread nD τ).loc main_arg3) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W6`, the generator register at some state. -/
abbrev Tₙ (c : Dev nD) : sProp 𝕄 := iprop(StableHlo.held (c : Thread nD τ) (Pipeline.ucRefs τ sig) (W6 m c) ∗ ∃ r, prngReg c r)

/-- The last host stretch's thread state is the last thread state beside the core owing nothing. -/
theorem lastChain (c : Dev nD) :
    iprop(StableHlo.held (c : Thread nD τ) (Pipeline.ucRefs τ sig) (W6 m c) ∗ R c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over the pinned configuration unifies with the printed one only when unification may
-- unfold plain definitions in a metavariable's type
set_option backward.isDefEq.respectTransparency.types false in
/-- Region 0 over the thread state: its arrays split out of the unscoped buffers at entry and put back at the exit
    contents; the generator register into the class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- Region 1 over the thread state. Its windows share an array, so the arrays' part of the entry and of the exit is
    the split and join of `arrays1_of_unscopedBufs` / `unscopedBufs_of_arrays1`; the rest as for the other regions. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) :=
      arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) :=
      unscopedBufs_of_arrays1 (V2 m) c (V3 m c) ((dat1 (V2 m) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: its arrays split out of the unscoped buffers at entry and put back at the exit
    contents; the generator register into the class invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub Gen.hostOps0_fresh (W0 m)),
    .region (reg0 m),
    .region (reg1 m),
    .host (hseg hostOps2 hostOps2_sub Gen.hostOps2_fresh (W3 m)),
    .region (reg2 m),
    .host (hseg hostOps3 hostOps3_sub Gen.hostOps3_fresh (W5 m)) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and in every final state each unscoped buffer holds `W6`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => lastChain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Att

end
-- ==== Proof.Spec.lean ====
/-
  The mathematics of the certificate, with no program in sight: multi-head attention over the extended reals, written
  twice — once in the arrangement the reference computes it in (`G`), once in the arrangement the three kernels
  compute it in (`K`).

  Inputs: `x` of shape [8, 1024, 1024] (batch, token, channel), `wq` of shape [3072, 1024] (the stacked query, key and
  value projections, output-channel major), `wp` of shape [1024, 1024] and `bp` of shape [1024] (the output projection
  and its bias). There are 16 heads of 64 channels. Row `s·1024 + H·64 + d` of `wq` is channel `d` of head `H` of the
  query (`s = 0`), key (`s = 1`) or value (`s = 2`) projection.

  * `qkv s b H n d = ∑ c, x[b, n, c] · wq[s·1024 + H·64 + d, c]`.
  * Reference arrangement: the score is `(∑ d, q[n, d] · k[n', d]) · scale`, the weights are
    `exp (score − rowmax) / ∑ exp (score − rowmax)`, and the head's output is `∑ n', weight[n, n'] · v[n', d]`.
  * Kernel arrangement: the scale is applied to the query before the product, `∑ d, (q[n, d] · scale) · k[n', d]`, and the
    normalisation after the product with the values, `(∑ n', e[n, n'] · v[n', d]) / ∑ e[n, ·]`.
  * Both end with `∑ c, out[b, n, c] · wp[f, c] + bp[f]`, channel `c = H·64 + d`.

  `scale` and the row maximum's starting value are kept as the float patterns both programs carry (0.125 and −∞).
-/
import Idealize.ShloMosaic.PureOps.Ideal
import Idealize.ShloMosaic.Lib.ValueIdx

noncomputable section

open scoped BigOperators
open Idealize.ShloMosaic Idealize.ShloMosaic.ValueIdx

namespace Cert.Attn

abbrev XT : Type := (⟨3, ![8, 1024, 1024]⟩ : Shape).Idx → EReal
abbrev WqT : Type := (⟨2, ![3072, 1024]⟩ : Shape).Idx → EReal
abbrev WpT : Type := (⟨2, ![1024, 1024]⟩ : Shape).Idx → EReal
abbrev BT : Type := (⟨1, ![1024]⟩ : Shape).Idx → EReal

/-- The softmax scale, 1/√64 = 0.125, as the float pattern both programs carry. -/
def scaleC : EReal := Ideal.ofBits .f32 0x3E000000#32
/-- The value a row maximum starts from: the pattern of −∞. -/
def negInf : EReal := Ideal.ofBits .f32 0xFF800000#32

/-- The row of `wq` that holds channel `d` of head `H` of projection `s` (0 query, 1 key, 2 value). -/
def wrow (s : Fin 3) (H : Fin 16) (d : Fin 64) : Fin 3072 := ⟨s.val * 1024 + H.val * 64 + d.val, by omega⟩

/-- Channel `H·64 + d` of the model dimension. -/
def chan (H : Fin 16) (d : Fin 64) : Fin 1024 := ⟨H.val * 64 + d.val, by omega⟩

/-- The head a model channel belongs to, and its place in the head. -/
def headOf (c : Fin 1024) : Fin 16 := ⟨c.val / 64, by omega⟩
def laneOf (c : Fin 1024) : Fin 64 := ⟨c.val % 64, by omega⟩

/-- The projected query / key / value entry. -/
def qkv (x : XT) (wq : WqT) (s : Fin 3) (b : Fin 8) (H : Fin 16) (n : Fin 1024) (d : Fin 64) : EReal :=
  ∑ c : Fin 1024, x (ix3 b n c) * wq (ix2 (wrow s H d) c)

/-- A row's maximum, folded from −∞. -/
def rowMax (f : Fin 1024 → EReal) : EReal := (Finset.univ : Finset (Fin 1024)).fold max negInf f

/-! ## The reference's arrangement -/

def scoreR (x : XT) (wq : WqT) (b : Fin 8) (H : Fin 16) (n n' : Fin 1024) : EReal :=
  (∑ d : Fin 64, qkv x wq 0 b H n d * qkv x wq 1 b H n' d) * scaleC

def expR (x : XT) (wq : WqT) (b : Fin 8) (H : Fin 16) (n n' : Fin 1024) : EReal :=
  Ideal.exp (scoreR x wq b H n n' - rowMax (scoreR x wq b H n))

def attR (x : XT) (wq : WqT) (b : Fin 8) (H : Fin 16) (n : Fin 1024) (d : Fin 64) : EReal :=
  ∑ n' : Fin 1024, Ideal.div (expR x wq b H n n') (∑ k : Fin 1024, expR x wq b H n k) * qkv x wq 2 b H n' d

/-- The reference's result at (b, n, f). -/
def G (x : XT) (wq : WqT) (wp : WpT) (bp : BT) (b : Fin 8) (n : Fin 1024) (f : Fin 1024) : EReal :=
  (∑ c : Fin 1024, attR x wq b (headOf c) n (laneOf c) * wp (ix2 f c)) + bp (ix1 f)

/-! ## The kernels' arrangement -/

def scoreK (x : XT) (wq : WqT) (b : Fin 8) (H : Fin 16) (n n' : Fin 1024) : EReal :=
  ∑ d : Fin 64, (qkv x wq 0 b H n d * scaleC) * qkv x wq 1 b H n' d

def expK (x : XT) (wq : WqT) (b : Fin 8) (H : Fin 16) (n n' : Fin 1024) : EReal :=
  Ideal.exp (scoreK x wq b H n n' - rowMax (scoreK x wq b H n))

def attK (x : XT) (wq : WqT) (b : Fin 8) (H : Fin 16) (n : Fin 1024) (d : Fin 64) : EReal :=
  Ideal.div (∑ n' : Fin 1024, expK x wq b H n n' * qkv x wq 2 b H n' d) (∑ k : Fin 1024, expK x wq b H n k)

/-- The kernels' result at (b, n, f). -/
def K (x : XT) (wq : WqT) (wp : WpT) (bp : BT) (b : Fin 8) (n : Fin 1024) (f : Fin 1024) : EReal :=
  (∑ c : Fin 1024, attK x wq b (headOf c) n (laneOf c) * wp (ix2 f c)) + bp (ix1 f)

end Cert.Attn

end
-- ==== Proof.SpecK.lean ====
/-
  The three kernels as whole-array functions over the extended reals, and how they chain.

  * `P0 a2 a0`: the stacked projection. `a2` is the input as 8192 rows (row `b·1024 + n`), `a0` the stacked weights.
    Entry (sb, hp, n, l) of the [24, 8, 1024, 128] result, with `sb = s·8 + b`, is the product of row `b·1024 + n` of
    `a2` with weight row `(s·8 + hp)·128 + l`: lane `l` of head pair `hp` of projection `s`.
  * `P1 a3`: attention. Entry (b, n, e) of the [8, 1024, 1024] result, with head pair `hp = e / 128`, the head's lane
    offset `hb = (e mod 128) / 64 · 64` and channel `d = e mod 64`, is the softmax-weighted sum of the value rows:
    scores `∑ d', (q[n, d'] · scale) · k[n', d']`, weights `exp (score − rowmax)`, result
    `(∑ n', w[n, n'] · v[n', d]) / ∑ w[n, ·]`, where q, k, v are the blocks (b, hp), (8 + b, hp), (16 + b, hp) of `a3`
    read at lanes `hb + ·`.
  * `P2 a5 a1 a6`: the output projection of the rows of `a5` by `a1` plus the bias row `a6`.
  * `chain`: the three composed through the reshapes between them, as a function of (b, n, f).
-/
import proofs.«138104_j6004364280063_2_alg».proof.Proof.Spec

noncomputable section

open scoped BigOperators
open Idealize.ShloMosaic Idealize.ShloMosaic.ValueIdx

namespace Cert.Attn

abbrev A2T : Type := (⟨2, ![8192, 1024]⟩ : Shape).Idx → EReal
abbrev A3T : Type := (⟨4, ![24, 8, 1024, 128]⟩ : Shape).Idx → EReal
abbrev A6T : Type := (⟨2, ![1, 1024]⟩ : Shape).Idx → EReal

/-! ## The projection of queries, keys and values -/

def P0c (a2 : A2T) (a0 : WqT) (sb : Fin 24) (hp : Fin 8) (n : Fin 1024) (l : Fin 128) : EReal :=
  ∑ c : Fin 1024, a2 (ix2 (⟨sb.val % 8 * 1024 + n.val, by omega⟩ : Fin 8192) c)
    * a0 (ix2 (⟨(sb.val / 8 * 8 + hp.val) * 128 + l.val, by omega⟩ : Fin 3072) c)

def P0 (a2 : A2T) (a0 : WqT) : A3T := fun i => P0c a2 a0 (i 0) (i 1) (i 2) (i 3)

/-! ## Attention of one batch entry and one head -/

/-- Lane `hb + d'` of a 128-lane head pair, `hb` the lane offset (0 or 64) of the head that channel `e` belongs to. -/
def laneIn (e : Fin 1024) (d' : Fin 64) : Fin 128 := ⟨e.val % 128 / 64 * 64 + d'.val, by omega⟩

/-- The query (`s = 0`), key (`s = 1`) or value (`s = 2`) entry (n', d') of batch entry `b` for the head of channel `e`. -/
def blkE (a3 : A3T) (s : Fin 3) (b : Fin 8) (e : Fin 1024) (n' : Fin 1024) (d' : Fin 64) : EReal :=
  a3 (ix4 (⟨s.val * 8 + b.val, by omega⟩ : Fin 24) (⟨e.val / 128, by omega⟩ : Fin 8) n' (laneIn e d'))

def scoreP (a3 : A3T) (b : Fin 8) (e : Fin 1024) (n n' : Fin 1024) : EReal :=
  ∑ d' : Fin 64, (blkE a3 0 b e n d' * scaleC) * blkE a3 1 b e n' d'

def expP (a3 : A3T) (b : Fin 8) (e : Fin 1024) (n n' : Fin 1024) : EReal :=
  Ideal.exp (scoreP a3 b e n n' - rowMax (scoreP a3 b e n))

def P1c (a3 : A3T) (b : Fin 8) (n : Fin 1024) (e : Fin 1024) : EReal :=
  Ideal.div (∑ n' : Fin 1024, expP a3 b e n n' * blkE a3 2 b e n' (laneOf e)) (∑ k : Fin 1024, expP a3 b e n k)

def P1 (a3 : A3T) : XT := fun i => P1c a3 (i 0) (i 1) (i 2)

/-! ## The output projection -/

def P2c (a5 : A2T) (a1 : WpT) (a6 : A6T) (r : Fin 8192) (f : Fin 1024) : EReal :=
  (∑ c : Fin 1024, a5 (ix2 r c) * a1 (ix2 f c)) + a6 (ix2 (0 : Fin 1) f)

def P2 (a5 : A2T) (a1 : WpT) (a6 : A6T) : A2T := fun i => P2c a5 a1 a6 (i 0) (i 1)

/-! ## The reshapes between them, and the chain -/

/-- [8, 1024, 1024] read as 8192 rows: row `r` is (r / 1024, r mod 1024). -/
def rowsC (a : XT) (r : Fin 8192) (c : Fin 1024) : EReal := a (ix3 (⟨r.val / 1024, by omega⟩ : Fin 8) (⟨r.val % 1024, by omega⟩ : Fin 1024) c)
def rows (a : XT) : A2T := fun i => rowsC a (i 0) (i 1)

/-- 8192 rows read as [8, 1024, 1024]. -/
def unrowsC (a : A2T) (b : Fin 8) (n : Fin 1024) (f : Fin 1024) : EReal := a (ix2 (⟨b.val * 1024 + n.val, by omega⟩ : Fin 8192) f)
def unrows (a : A2T) : XT := fun i => unrowsC a (i 0) (i 1) (i 2)

/-- [1024] read as one row. -/
def oneRow (a : BT) : A6T := fun i => a (ix1 (i 1))

/-- The whole program: projection, attention, output projection, through the reshapes. -/
def chain (x : XT) (wq : WqT) (wp : WpT) (bp : BT) : XT :=
  unrows (P2 (rows (P1 (P0 (rows x) wq))) wp (oneRow bp))

end Cert.Attn

end
-- ==== Proof.LibMatmulNT.lean ====
/-
  A matrix product against a transposed right operand, into a zero accumulator, read at an entry.

  For a dot whose dimension numbers contract the left operand's columns against the right operand's COLUMNS, with no
  batch axis — `[M, K] × [N, K] → [M, N]`, the product `lhs · rhsᵀ` — the product accumulated into the zero splat is,
  at the extended reals, the textbook sum: entry `(p, c)` is the sum over `k` of `lhs (p, k) · rhs (c, k)`. The
  dimension numbers enter only through four coordinate facts about the dot's operand indices (which a literal record
  proves by evaluating its membership tests) and the fact that exactly one axis, of extent `K`, is contracted; the
  lemma is general in the extents, the element types and the contraction precision, so it serves every such product of
  a kernel body (scores of queries against keys, a projection by a weight stored output-channel first).
-/
import Idealize.ShloMosaic.PureOps.Ideal.Laws
import Idealize.ShloMosaic.Lib.ValueIdx

noncomputable section

namespace Cert.LibMatmulNT

open Idealize.ShloMosaic Idealize.ShloMosaic.ValueIdx
open scoped BigOperators

/-- Entry `(p, c)` of `lhs · rhsᵀ` accumulated into zero is `Σ k, lhs (p, k) · rhs (c, k)`: the dot's sum over its
    one-axis contraction index, re-indexed along the bijection of that index with `Fin K`, each operand index then
    identified by its two coordinates. -/
theorem matmul_nt_zero_ix2 {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (c : Fin N) :
    matmul D prec lhs rhs (constant ⟨2, ![M, N]⟩ .f32 0x00000000#32) (ix2 p c)
      = ∑ k : Fin K, lhs (ix2 p k) * rhs (ix2 c k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.LibMatmulNT

end
-- ==== Proof.Value0.lean ====
/-
  The value of the first kernel region over the extended reals: after its grid points have written their blocks back,
  the output array is the stacked projection `P0` of the two input arrays as the region finds them.

  * The body's payload at an entry (·, ·, n, l) of its block is `∑ c, x0[n, c] · x1[l, c]`: the matrix product against
    the transposed second operand into a zero accumulator; the format changes are the identity on extended reals and
    the last cast only adds two leading unit axes.
  * The point that writes block (A, B) of the output reads rows `(A mod 8)·1024 + ·` of the first array and rows
    `(⌊A / 8⌋·8 + B)·128 + ·` of the second; the 24 × 8 blocks cover the output array.
-/
import proofs.«138104_j6004364280063_2_alg».proof.Proof.DataI
import proofs.«138104_j6004364280063_2_alg».proof.Proof.SpecK
import proofs.«138104_j6004364280063_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Att

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The payload at an entry -/

abbrev D0 := dot_S1024x1024_S128x1024_S1024x128_1_1_0_0_n_n

theorem D0_lhs0 (i : S1024x128.Idx) (q : D0.contr.Idx) : (D0.lhsIdx i q 0).val = (i 0).val := by
  unfold DotDims.lhsIdx
  rw [dif_neg (show ¬(0 : Fin S1024x1024.rank) ∈ D0.lhsBatch by decide),
    dif_pos (show (0 : Fin S1024x1024.rank) ∈ D0.lhsNonContracting by decide)]
  rfl

theorem D0_lhs1 (i : S1024x128.Idx) (q : D0.contr.Idx) : (D0.lhsIdx i q 1).val = (q ⟨0, by decide⟩).val :=
  D0.lhsIdx_val_of_single rfl i q

theorem D0_rhs0 (i : S1024x128.Idx) (q : D0.contr.Idx) : (D0.rhsIdx i q 0).val = (i 1).val := by
  unfold DotDims.rhsIdx
  rw [dif_neg (show ¬(0 : Fin S128x1024.rank) ∈ D0.rhsBatch by decide),
    dif_pos (show (0 : Fin S128x1024.rank) ∈ D0.rhsNonContracting by decide)]
  rfl

theorem D0_rhs1 (i : S1024x128.Idx) (q : D0.contr.Idx) : (D0.rhsIdx i q 1).val = (q ⟨0, by decide⟩).val :=
  D0.rhsIdx_val_of_single rfl i q

/-- An `[a, b]` array cast to `[1, 1, a, b]` reads, at `(u0, u1, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u0 u1 : Fin 1) (i : Fin a) (j : Fin b) :
    shapeCast ⟨4, ![1, 1, a, b]⟩ x h (ix4 u0 u1 i j) = x (ix2 i j) :=
  shapeCast_apply x h _ _ (by
    have hu0 : u0.val = 0 := by omega
    have hu1 : u1.val = 0 := by omega
    rw [Shape.rowMajor_val_four, Shape.rowMajor_val_two]
    show i.val * b + j.val = ((u0.val * 1 + u1.val) * a + i.val) * b + j.val
    simp only [hu0, hu1, Nat.zero_mul, Nat.zero_add])

/-- The body's payload at entry (u0, u1, n, l): the product of row `n` of the first block with row `l` of the second. -/
theorem pay0_apply (x0 : Vec Ideal S1024x1024 .f32) (x1 : Vec Ideal S128x1024 .bf16) (u0 u1 : Fin 1) (n : Fin 1024)
    (l : Fin 128) : k0_pay1 x0 x1 (ix4 u0 u1 n l) = ∑ c : Fin 1024, x0 (ix2 n c) * x1 (ix2 l c) := by
  unfold k0_pay1
  rw [shapeCast_ab_11ab_apply, truncf_apply, shapeCast_self, shapeCast_self]
  rw [Cert.LibMatmulNT.matmul_nt_zero_ix2 D0 none rfl rfl D0_lhs0 D0_lhs1 D0_rhs0 D0_rhs1]
  rfl

/-! ## What a point writes back -/

theorem hz0_2 : (![0, 0] : Fin 2 → Nat) = fun _ => 0 := funext fun a => by fin_cases a <;> rfl
theorem hz0_4 : (![0, 0, 0, 0] : Fin 4 → Nat) = fun _ => 0 := funext fun a => by fin_cases a <;> rfl

/-- The payload over blocks that are read off two arrays: row `n` of the first block is row `(sb mod 8)·1024 + n` of the
    first array, row `l` of the second block is row `(⌊sb / 8⌋·8 + hp)·128 + l` of the second. -/
theorem point0 (a2 : Cert.Attn.A2T) (a0 : Cert.Attn.WqT)
    (x0 : Vec Ideal S1024x1024 .f32) (x1 : Vec Ideal S128x1024 .bf16)
    (sb : Fin 24) (hp : Fin 8) (u0 u1 : Fin 1) (n : Fin 1024) (l : Fin 128)
    (h0 : ∀ c : Fin 1024, x0 (ix2 n c) = a2 (ix2 (⟨sb.val % 8 * 1024 + n.val, by omega⟩ : Fin 8192) c))
    (h1 : ∀ c : Fin 1024, x1 (ix2 l c)
      = a0 (ix2 (⟨(sb.val / 8 * 8 + hp.val) * 128 + l.val, by omega⟩ : Fin 3072) c)) :
    k0_pay1 x0 x1 (ix4 u0 u1 n l) = Cert.Attn.P0 a2 a0 (ix4 sb hp n l) := by
  rw [pay0_apply]
  show _ = Cert.Attn.P0c a2 a0 sb hp n l
  unfold Cert.Attn.P0c
  simp only [h0, h1]

/-- The printed index maps, decided over the grid: with (A, B) the output's block, the first input's block of rows is
    `A mod 8` and the second's is `⌊A / 8⌋·8 + B`. -/
theorem idx_facts0 : ∀ t : Fin cfg0.N, win0_0.index t (0 : Fin 2) = win0_2.index t (0 : Fin 4) % 8
    ∧ win0_0.index t (1 : Fin 2) = 0
    ∧ win0_1.index t (0 : Fin 2) = win0_2.index t (0 : Fin 4) / 8 * 8 + win0_2.index t (1 : Fin 4)
    ∧ win0_1.index t (1 : Fin 2) = 0
    ∧ win0_2.index t (2 : Fin 4) = 0 ∧ win0_2.index t (3 : Fin 4) = 0
    ∧ win0_2.index t (0 : Fin 4) ≤ 23 ∧ win0_2.index t (1 : Fin 4) ≤ 7 :=
  (by decide +kernel : ∀ t : Fin grid0.N, _)

/-- Every block of the output is some point's. -/
theorem idx_onto0 : ∀ (q0 : Fin 24) (q1 : Fin 8), ∃ t : Fin cfg0.N, win0_2.index t = ![q0.val, q1.val, 0, 0] :=
  (by decide +kernel : ∀ (q0 : Fin 24) (q1 : Fin 8), ∃ t : Fin grid0.N, win0_2.index t = ![q0.val, q1.val, 0, 0])

variable (V : (c : Dev nD) → (b : Ref sig .tc) → Buf (Elt Ideal) ((c : Thread nD τ).loc b))

/-- The output array's target: the stacked projection of the two input arrays as the region finds them. -/
abbrev G0 (c : Dev nD) : Cert.Attn.A3T := Cert.Attn.P0 (V c main_v2) (V c main_v0)

/-- What point `t` writes back is block `t` of the target. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  dsimp only [dat0]
  unfold out0_2
  rw [View.canon_unit_zero hz0_4]
  simp only [View.ld_unit_zero (S := S1024x1024) hz0_2, View.ld_unit_zero (S := S128x1024) hz0_2]
  obtain ⟨e0, e1, e2, e3, e4, e5, e6, e7⟩ := idx_facts0 t
  funext j
  obtain ⟨u0, u1, n, l, rfl⟩ : ∃ (u0 u1 : Fin 1) (n : Fin 1024) (l : Fin 128), j = ix4 u0 u1 n l :=
    ⟨j 0, j 1, j 2, j 3, eq_ix4 j⟩
  have hu0 : u0.val = 0 := by omega
  have hu1 : u1.val = 0 := by omega
  have hn := n.isLt
  have hl := l.isLt
  show k0_pay1 (iblk0 V c 0 t) (iblk0 V c 1 t) (ix4 u0 u1 n l)
    = G0 V c (((cfg0.win 2).blk t).view.emb (ix4 u0 u1 n l))
  have hA : win0_2.index t (0 : Fin 4) < 24 := by omega
  have hB : win0_2.index t (1 : Fin 4) < 8 := by omega
  have hemb : ((cfg0.win 2).blk t).view.emb (ix4 u0 u1 n l)
      = ix4 (⟨win0_2.index t (0 : Fin 4), hA⟩ : Fin 24) (⟨win0_2.index t (1 : Fin 4), hB⟩ : Fin 8) n l := by
    funext a; apply Fin.ext
    match a with
    | ⟨0, _⟩ => show win0_2.index t (0 : Fin 4) * 1 + 1 * u0.val = win0_2.index t (0 : Fin 4); omega
    | ⟨1, _⟩ => show win0_2.index t (1 : Fin 4) * 1 + 1 * u1.val = win0_2.index t (1 : Fin 4); omega
    | ⟨2, _⟩ => show win0_2.index t (2 : Fin 4) * 1024 + 1 * n.val = n.val; omega
    | ⟨3, _⟩ => show win0_2.index t (3 : Fin 4) * 128 + 1 * l.val = l.val; omega
  rw [hemb]
  refine point0 (V c main_v2) (V c main_v0) _ _ _ _ u0 u1 n l (fun k => ?_) (fun k => ?_)
  · have hk := k.isLt
    show V c main_v2 (((cfg0.win 0).blk t).view.emb (ix2 n k)) = _
    refine congrArg (V c main_v2) ?_
    funext a; apply Fin.ext
    match a with
    | ⟨0, _⟩ =>
      show win0_0.index t (0 : Fin 2) * 1024 + 1 * n.val = win0_2.index t (0 : Fin 4) % 8 * 1024 + n.val
      omega
    | ⟨1, _⟩ => show win0_0.index t (1 : Fin 2) * 1024 + 1 * k.val = k.val; omega
  · have hk := k.isLt
    show V c main_v0 (((cfg0.win 1).blk t).view.emb (ix2 l k)) = _
    refine congrArg (V c main_v0) ?_
    funext a; apply Fin.ext
    match a with
    | ⟨0, _⟩ =>
      show win0_1.index t (0 : Fin 2) * 128 + 1 * l.val
        = (win0_2.index t (0 : Fin 4) / 8 * 8 + win0_2.index t (1 : Fin 4)) * 128 + l.val
      omega
    | ⟨1, _⟩ => show win0_1.index t (1 : Fin 2) * 1024 + 1 * k.val = k.val; omega

/-! ## The array after the run -/

/-- An index of the output array is in point `t`'s block iff each coordinate is in the block's range on its axis. -/
theorem mem_blk0 (t : Fin cfg0.N) (i : S24x8x1024x128.Idx) :
    i ∈ ((cfg0.win 2).blk t).view.set ↔ ∀ a : Fin 4, win0_2.index t a * S1x1x1024x128.size a ≤ (i a).val
      ∧ (i a).val < win0_2.index t a * S1x1x1024x128.size a + S1x1x1024x128.size a := by
  show i ∈ ((View.whole main_v3).slice (win0_2.rect t)).set ↔ _
  rw [View.set_slice_whole, Rect.mem_set_unit]
  exact Iff.rfl

/-- Every index of the output array lies in the block of the point of its two leading coordinates. -/
theorem cover0 (i : S24x8x1024x128.Idx) :
    ∃ t : Fin cfg0.N, (cfg0.win 2).flush t = true ∧ i ∈ ((cfg0.win 2).blk t).view.set := by
  have hi0 : (i 0).val < 24 := (i 0).isLt
  have hi1 : (i 1).val < 8 := (i 1).isLt
  have hi2 : (i 2).val < 1024 := (i 2).isLt
  have hi3 : (i 3).val < 128 := (i 3).isLt
  obtain ⟨t, ht⟩ := idx_onto0 ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk0]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 1 ≤ (i 1).val ∧ (i 1).val < win0_2.index t (1 : Fin 4) * 1 + 1
    omega
  | ⟨2, _⟩ =>
    show win0_2.index t (2 : Fin 4) * 1024 ≤ (i 2).val ∧ (i 2).val < win0_2.index t (2 : Fin 4) * 1024 + 1024
    omega
  | ⟨3, _⟩ =>
    show win0_2.index t (3 : Fin 4) * 128 ≤ (i 3).val ∧ (i 3).val < win0_2.index t (3 : Fin 4) * 128 + 128
    omega

/-- The output array after the region's run is the stacked projection of the two input arrays. -/
theorem final0 (c : Dev nD) : (dat0 V c).arrAt 2 cfg0.N = Cert.Attn.P0 (V c main_v2) (V c main_v0) :=
  (dat0 V c).arrAt_eq_of_cover 2 (G0 V c) (fun t _ => flushed0_eq V c t) cover0

end Cert.KernelIdeal.Att

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Value1A.lean ====
/-
  One attention head on the matrix unit, read entry by entry over the extended reals.

  The body of the attention kernel computes, for each of its two heads, from a query block `q`, a key block `k` and a
  value block `v` (1024 rows of 64 channels each): the scores `(q · scale) kᵀ`, their row maxima, the shifted
  scores' exponentials `e`, and `(e v) / rowsum e`. Read at an entry these are the textbook formulas:

  * `scoreT q k` at (n, n') is `∑ d, (q[n, d] · scale) · k[n', d]`;
  * `subMax s` at (n, n') is `s[n, n'] − max_j s[n, j]`, the maximum folded from −∞;
  * `finT e v` at (n, d) is `(∑ n', e[n, n'] · v[n', d]) / ∑ n', e[n, n']`.

  Changes of float format are the identity on extended reals.
-/
import proofs.«138104_j6004364280063_2_alg».proof.Proof.Gen.KernelIdeal.Skeleton
import proofs.«138104_j6004364280063_2_alg».proof.Proof.LibMatmulNT
import proofs.«138104_j6004364280063_2_alg».proof.Proof.LibPlainMatmul
import proofs.«138104_j6004364280063_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttV

open Cert.KernelIdeal Cert.KernelIdeal.Gen
open Idealize.ShloMosaic Idealize.ShloMosaic.ValueIdx

/-- The scale 0.125 as an extended real. -/
abbrev cE : EReal := Ideal.ofBits .f32 0x3E000000#32
/-- −∞, the value a row maximum starts from. -/
abbrev nE : EReal := Ideal.ofBits .f32 0xFF800000#32

/-! ## The scores -/

def scoreT (q k : FVec Ideal S1024x64 .bf16) : FVec Ideal S1024x1024 .f32 :=
  matmul dot_S1024x64_S1024x64_S1024x1024_1_1_0_0_n_n none
    (truncf .bf16 (mulf (extf .f32 q bitsLt_bf16_f32) (broadcast S1024x64 (Scalar.ofBits (F := Ideal) .f32 0x3E000000#32))) bitsLt_bf16_f32)
    k (constant S1024x1024 .f32 0x00000000#32)

theorem scoreT_apply (q k : FVec Ideal S1024x64 .bf16) (n n' : Fin 1024) :
    scoreT q k (ix2 n n') = ∑ d : Fin 64, (q (ix2 n d) * cE) * k (ix2 n' d) := by
  unfold scoreT
  refine (Cert.LibMatmulNT.matmul_nt_zero_ix2 (M := 1024) (K := 64) (N := 1024) dot_S1024x64_S1024x64_S1024x1024_1_1_0_0_n_n none rfl rfl
    (fun i q => by
      unfold DotDims.lhsIdx
      rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
      rfl)
    (fun i q => dot_S1024x64_S1024x64_S1024x1024_1_1_0_0_n_n.lhsIdx_val_of_single rfl i q)
    (fun i q => by
      unfold DotDims.rhsIdx
      rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
      rfl)
    (fun i q => dot_S1024x64_S1024x64_S1024x1024_1_1_0_0_n_n.rhsIdx_val_of_single rfl i q)
    _ k n n').trans ?_
  rfl

/-! ## The shifted scores -/

def subMax (s : FVec Ideal S1024x1024 .f32) : FVec Ideal S1024x1024 .f32 :=
  subf s (broadcastTo S1024x1024
    (shapeCast S1024x1 (multiReduction .maximumf [1] S1024 s 0xFF800000#32 reduces_S1024x1024_S1024 (.inl rfl) rfl) shapeCasts_S1024_S1024x1)
    broadcasts_S1024x1_S1024x1024)

/-- Row `n` with column `j` put back is (n, j). -/
theorem lift_row (h : S1024x1024.Reduces [1] S1024) (n : Fin 1024) (j : Fin (S1024x1024.size 1)) :
    h.lift (ix1 n) j = ix2 n (⟨j.val, j.isLt⟩ : Fin 1024) := by
  funext a; apply Fin.ext
  match a with
  | ⟨0, _⟩ => rfl
  | ⟨1, _⟩ => rfl

theorem rowMax_apply (s : FVec Ideal S1024x1024 .f32) (hφ : FKind.Formats .f32)
    (hacc : (0xFF800000#32 : BitVec 32) = FKind.maximumf.neutral .f32 hφ) (n : Fin 1024) :
    multiReduction .maximumf [1] S1024 s 0xFF800000#32 reduces_S1024x1024_S1024 hφ hacc (ix1 n)
      = (Finset.univ : Finset (Fin 1024)).fold max nE (fun j => s (ix2 n j)) := by
  refine (Ideal.multiReduction_maximumf_single s 0xFF800000#32 reduces_S1024x1024_S1024 hφ hacc (ix1 n)).trans ?_
  have hf : (s ∘ reduces_S1024x1024_S1024.lift (ix1 n)) = fun j : Fin 1024 => s (ix2 n j) :=
    funext fun j => congrArg s (lift_row reduces_S1024x1024_S1024 n j)
  exact congrArg (fun f => Finset.fold max nE f (Finset.univ : Finset (Fin 1024))) hf

theorem subMax_apply (s : FVec Ideal S1024x1024 .f32) (n n' : Fin 1024) :
    subMax s (ix2 n n') = s (ix2 n n') - (Finset.univ : Finset (Fin 1024)).fold max nE (fun j => s (ix2 n j)) := by
  unfold subMax
  rw [subf_apply]
  refine congrArg (fun z => s (ix2 n n') - z) ?_
  refine (Cert.LibColumn.broadcastTo_a1_ab_apply _ broadcasts_S1024x1_S1024x1024 n n').trans ?_
  refine (Cert.LibColumn.shapeCast_a_a1_apply _ shapeCasts_S1024_S1024x1 n (0 : Fin 1)).trans ?_
  exact rowMax_apply s _ _ n

/-! ## The weighted sum of values, normalised -/

def finT (e : FVec Ideal S1024x1024 .f32) (v : FVec Ideal S1024x64 .bf16) : FVec Ideal S1024x64 .bf16 :=
  truncf .bf16
    (divf
      (matmul dot_S1024x1024_S1024x64_S1024x64_1_0_0_1_n_n none (truncf .bf16 e bitsLt_bf16_f32) v (constant S1024x64 .f32 0x00000000#32))
      (broadcastTo S1024x64
        (shapeCast S1024x1 (multiReduction .add [1] S1024 e 0x00000000#32 reduces_S1024x1024_S1024 (.inl rfl) rfl) shapeCasts_S1024_S1024x1)
        broadcasts_S1024x1_S1024x64))
    bitsLt_bf16_f32

theorem rowSum_apply (e : FVec Ideal S1024x1024 .f32) (hφ : FKind.Formats .f32)
    (hacc : (0x00000000#32 : BitVec 32) = FKind.add.neutral .f32 hφ) (n : Fin 1024) :
    multiReduction .add [1] S1024 e 0x00000000#32 reduces_S1024x1024_S1024 hφ hacc (ix1 n)
      = ∑ j : Fin 1024, e (ix2 n j) := by
  refine (Ideal.multiReduction_add_single e 0x00000000#32 reduces_S1024x1024_S1024 hφ hacc (ix1 n)).trans ?_
  exact Finset.sum_congr rfl fun j _ => congrArg e (lift_row reduces_S1024x1024_S1024 n j)

theorem finT_apply (e : FVec Ideal S1024x1024 .f32) (v : FVec Ideal S1024x64 .bf16) (n : Fin 1024) (d : Fin 64) :
    finT e v (ix2 n d) = Ideal.div (∑ n' : Fin 1024, e (ix2 n n') * v (ix2 n' d)) (∑ j : Fin 1024, e (ix2 n j)) := by
  unfold finT
  rw [truncf_apply, divf_apply]
  have h1 : matmul dot_S1024x1024_S1024x64_S1024x64_1_0_0_1_n_n none (truncf .bf16 e bitsLt_bf16_f32) v (constant S1024x64 .f32 0x00000000#32) (ix2 n d)
      = ∑ n' : Fin 1024, e (ix2 n n') * v (ix2 n' d) :=
    (Cert.LibPlainMatmul.matmul_zero_ix2 (M := 1024) (K := 1024) (N := 64) dot_S1024x1024_S1024x64_S1024x64_1_0_0_1_n_n none rfl rfl
      (fun i q => by
        unfold DotDims.lhsIdx
        rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
        rfl)
      (fun i q => dot_S1024x1024_S1024x64_S1024x64_1_0_0_1_n_n.lhsIdx_val_of_single rfl i q)
      (fun i q => dot_S1024x1024_S1024x64_S1024x64_1_0_0_1_n_n.rhsIdx_val_of_single rfl i q)
      (fun i q => by
        unfold DotDims.rhsIdx
        rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
        rfl)
      _ v n d).trans rfl
  have h2 : broadcastTo S1024x64
        (shapeCast S1024x1 (multiReduction .add [1] S1024 e 0x00000000#32 reduces_S1024x1024_S1024 (.inl rfl) rfl) shapeCasts_S1024_S1024x1)
        broadcasts_S1024x1_S1024x64 (ix2 n d) = ∑ j : Fin 1024, e (ix2 n j) := by
    refine (Cert.LibColumn.broadcastTo_a1_ab_apply _ broadcasts_S1024x1_S1024x64 n d).trans ?_
    refine (Cert.LibColumn.shapeCast_a_a1_apply _ shapeCasts_S1024_S1024x1 n (0 : Fin 1)).trans ?_
    exact rowSum_apply e _ _ n
  rw [h1, h2]

/-- The exponential of a block reads the exponential of the entry. -/
theorem exp_apply (s : FVec Ideal S1024x1024 .f32) (i : S1024x1024.Idx) : exp s i = Ideal.exp (s i) := rfl

end Cert.KernelIdeal.AttV

end
-- ==== Proof.Value1B.lean ====
/-
  What the attention body stores, read entry by entry.

  The body loads a query, a key and a value block of shape [1, 1, 1024, 128] — two heads side by side, 64 lanes each —,
  runs each head's attention on its 64 lanes and stores the two results side by side as a [1, 1024, 128] block. Entry
  (0, n, e) of the stored block is the attention of the head that lane `e` belongs to (lanes `e / 64 · 64 + ·` of the three
  blocks), at row `n` and channel `e mod 64` (`blockOut_apply`).
-/
import proofs.«138104_j6004364280063_2_alg».proof.Proof.Value1A

noncomputable section

open scoped BigOperators

namespace Cert.KernelIdeal.AttV

open Cert.KernelIdeal Cert.KernelIdeal.Gen
open Idealize.ShloMosaic Idealize.ShloMosaic.ValueIdx

/-! ## The blocks' lanes -/

/-- A [1, 1, 1024, 128] block read as a matrix. -/
theorem cast4to2_apply (x : Vec Ideal S1x1x1024x128 .bf16) (n : Fin 1024) (l : Fin 128) :
    shapeCast S1024x128 x shapeCasts_S1x1x1024x128_S1024x128 (ix2 n l) = x (ix4 (0 : Fin 1) (0 : Fin 1) n l) :=
  shapeCast_apply x _ _ _ (by
    rw [Shape.rowMajor_val_four, Shape.rowMajor_val_two]
    show (((0 * 1 + 0) * 1024 + n.val) * 128 + l.val) = n.val * 128 + l.val
    simp only [Nat.zero_mul, Nat.zero_add])

/-- The first head's 64 lanes of a block, as a matrix. -/
def sl0 (x : Vec Ideal S1x1x1024x128 .bf16) : FVec Ideal S1024x64 .bf16 :=
  extractStridedSlice S1024x64 ![0, 0] (shapeCast S1024x128 x shapeCasts_S1x1x1024x128_S1024x128) slices_S1024x128_o0_0_S1024x64
/-- The second head's. -/
def sl1 (x : Vec Ideal S1x1x1024x128 .bf16) : FVec Ideal S1024x64 .bf16 :=
  extractStridedSlice S1024x64 ![0, 64] (shapeCast S1024x128 x shapeCasts_S1x1x1024x128_S1024x128) slices_S1024x128_o0_64_S1024x64

theorem sl0_apply (x : Vec Ideal S1x1x1024x128 .bf16) (n : Fin 1024) (d : Fin 64) :
    sl0 x (ix2 n d) = x (ix4 (0 : Fin 1) (0 : Fin 1) n (⟨d.val, by omega⟩ : Fin 128)) :=
  (slice2_axis1_apply 0 _ slices_S1024x128_o0_0_S1024x64 n d (⟨d.val, by omega⟩ : Fin 128) (by simp)).trans
    (cast4to2_apply x n _)

theorem sl1_apply (x : Vec Ideal S1x1x1024x128 .bf16) (n : Fin 1024) (d : Fin 64) :
    sl1 x (ix2 n d) = x (ix4 (0 : Fin 1) (0 : Fin 1) n (⟨64 + d.val, by omega⟩ : Fin 128)) :=
  (slice2_axis1_apply 64 _ slices_S1024x128_o0_64_S1024x64 n d (⟨64 + d.val, by omega⟩ : Fin 128) rfl).trans
    (cast4to2_apply x n _)

/-! ## One head's attention over chosen lanes -/

/-- Attention at row `n` and lane `ln d` of the blocks, the head's channels read at the lanes `ln`. -/
def headVal (x0 x1 x2 : Vec Ideal S1x1x1024x128 .bf16) (ln : Fin 64 → Fin 128) (n : Fin 1024) (d : Fin 64) : EReal :=
  Ideal.div
    (∑ n' : Fin 1024,
      Ideal.exp ((∑ d' : Fin 64, (x0 (ix4 (0 : Fin 1) (0 : Fin 1) n (ln d')) * cE) * x1 (ix4 (0 : Fin 1) (0 : Fin 1) n' (ln d')))
        - (Finset.univ : Finset (Fin 1024)).fold max nE
            (fun j => ∑ d' : Fin 64, (x0 (ix4 (0 : Fin 1) (0 : Fin 1) n (ln d')) * cE) * x1 (ix4 (0 : Fin 1) (0 : Fin 1) j (ln d'))))
      * x2 (ix4 (0 : Fin 1) (0 : Fin 1) n' (ln d)))
    (∑ k : Fin 1024,
      Ideal.exp ((∑ d' : Fin 64, (x0 (ix4 (0 : Fin 1) (0 : Fin 1) n (ln d')) * cE) * x1 (ix4 (0 : Fin 1) (0 : Fin 1) k (ln d')))
        - (Finset.univ : Finset (Fin 1024)).fold max nE
            (fun j => ∑ d' : Fin 64, (x0 (ix4 (0 : Fin 1) (0 : Fin 1) n (ln d')) * cE) * x1 (ix4 (0 : Fin 1) (0 : Fin 1) j (ln d')))))

theorem head0_apply (x0 x1 x2 : Vec Ideal S1x1x1024x128 .bf16) (n : Fin 1024) (d : Fin 64) :
    finT (exp (subMax (scoreT (sl0 x0) (sl0 x1)))) (sl0 x2) (ix2 n d)
      = headVal x0 x1 x2 (fun d' => (⟨d'.val, by omega⟩ : Fin 128)) n d := by
  rw [finT_apply]
  simp only [exp_apply, subMax_apply, scoreT_apply, sl0_apply]
  rfl

theorem head1_apply (x0 x1 x2 : Vec Ideal S1x1x1024x128 .bf16) (n : Fin 1024) (d : Fin 64) :
    finT (exp (subMax (scoreT (sl1 x0) (sl1 x1)))) (sl1 x2) (ix2 n d)
      = headVal x0 x1 x2 (fun d' => (⟨64 + d'.val, by omega⟩ : Fin 128)) n d := by
  rw [finT_apply]
  simp only [exp_apply, subMax_apply, scoreT_apply, sl1_apply]
  rfl

/-! ## The stored block -/

/-- What the body stores, as a function of the three loaded blocks. -/
def blockOut (x0 x1 x2 : Vec Ideal S1x1x1024x128 .bf16) : FVec Ideal S1x1024x128 .bf16 :=
  k1_pay1 (k1_pay5 x0 x1 x2) (k1_pay6 x2) (k1_pay7 x0 x1)

/-- It is the two heads' attentions side by side. -/
theorem blockOut_eq (x0 x1 x2 : Vec Ideal S1x1x1024x128 .bf16) :
    blockOut x0 x1 x2 = shapeCast S1x1024x128
      (concatenate S1024x128 1 [⟨S1024x64, finT (exp (subMax (scoreT (sl0 x0) (sl0 x1)))) (sl0 x2)⟩,
        ⟨S1024x64, finT (exp (subMax (scoreT (sl1 x0) (sl1 x1)))) (sl1 x2)⟩] concatenates_S1024x64_S1024x64_S1024x128_d1)
      shapeCasts_S1024x128_S1x1024x128 := rfl

/-- Entry (0, n, e) of the stored block: the attention of lane `e`'s head at row `n`, channel `e mod 64`. -/
theorem blockOut_apply (x0 x1 x2 : Vec Ideal S1x1x1024x128 .bf16) (n : Fin 1024) (e : Fin 128) :
    blockOut x0 x1 x2 (ix3 (0 : Fin 1) n e)
      = headVal x0 x1 x2 (fun d' => (⟨e.val / 64 * 64 + d'.val, by omega⟩ : Fin 128)) n (⟨e.val % 64, by omega⟩ : Fin 64) := by
  rw [blockOut_eq]
  refine (shapeCast_ab_1ab_apply _ shapeCasts_S1024x128_S1x1024x128 (0 : Fin 1) n e).trans ?_
  by_cases he : e.val < 64
  · refine (concatenate_pair_apply_left (1 : Fin S1024x128.rank) _ _ concatenates_S1024x64_S1024x64_S1024x128_d1 (ix2 n e) rfl
      (ix2 n (⟨e.val, he⟩ : Fin 64)) (fun b => by match b with | ⟨0, _⟩ => rfl | ⟨1, _⟩ => rfl)).trans ?_
    refine (head0_apply x0 x1 x2 n ⟨e.val, he⟩).trans ?_
    have hl : (fun d' : Fin 64 => (⟨d'.val, by omega⟩ : Fin 128)) = fun d' : Fin 64 => (⟨e.val / 64 * 64 + d'.val, by omega⟩ : Fin 128) :=
      funext fun d' => Fin.ext (by show d'.val = e.val / 64 * 64 + d'.val; omega)
    have hd : (⟨e.val, he⟩ : Fin 64) = ⟨e.val % 64, by omega⟩ := Fin.ext (by show e.val = e.val % 64; omega)
    rw [hl, hd]
  · have he' : e.val - 64 < 64 := by omega
    refine (concatenate_pair_apply_right (1 : Fin S1024x128.rank) _ _ concatenates_S1024x64_S1024x64_S1024x128_d1 (ix2 n e) rfl rfl
      (ix2 n (⟨e.val - 64, he'⟩ : Fin 64)) (fun b hb => by
        match b with
        | ⟨0, _⟩ => rfl
        | ⟨1, _⟩ => exact absurd rfl hb) (by show e.val - 64 + 64 = e.val; omega)).trans ?_
    refine (head1_apply x0 x1 x2 n ⟨e.val - 64, he'⟩).trans ?_
    have hl : (fun d' : Fin 64 => (⟨64 + d'.val, by omega⟩ : Fin 128)) = fun d' : Fin 64 => (⟨e.val / 64 * 64 + d'.val, by omega⟩ : Fin 128) :=
      funext fun d' => Fin.ext (by show 64 + d'.val = e.val / 64 * 64 + d'.val; omega)
    have hd : (⟨e.val - 64, he'⟩ : Fin 64) = ⟨e.val % 64, by omega⟩ := Fin.ext (by show e.val - 64 = e.val % 64; omega)
    rw [hl, hd]

end Cert.KernelIdeal.AttV

end
-- ==== Proof.Value1C.lean ====
/-
  The attention region's output array as one function of its input array.

  At grid point `t` the region reads, of the one [24, 8, 1024, 128] array of projected queries, keys and values, the
  blocks (b, hp), (8 + b, hp) and (16 + b, hp), and writes block (b, 0, hp) of the [8, 1024, 1024] output, where
  (b, hp) = t's coordinates. The stored block is the two heads' attentions (`blockOut_apply`); read through the
  blocks' places in the arrays it is block (b, 0, hp) of `P1` of the input array (`flushed1_eq`). The 64 blocks tile
  the output, so after the last write-back the output array is `P1` of the input array (`final1`).
-/
import proofs.«138104_j6004364280063_2_alg».proof.Proof.DataI
import proofs.«138104_j6004364280063_2_alg».proof.Proof.SpecK
import proofs.«138104_j6004364280063_2_alg».proof.Proof.Value1B

set_option maxRecDepth 16384

noncomputable section

open scoped BigOperators

namespace Cert.KernelIdeal.Att

open Cert.KernelIdeal Cert.KernelIdeal.Gen Cert.KernelIdeal.AttV
open Idealize.ShloMosaic Idealize.ShloMosaic.TcCoe Idealize.ShloMosaic.ValueIdx
open Idealize.SL.Sem

/-! ## Attention of one row from its head's query, key and value entries -/

def attnVal (qf kf : Fin 1024 → Fin 64 → EReal) (vf : Fin 1024 → EReal) (n : Fin 1024) : EReal :=
  Ideal.div
    (∑ n' : Fin 1024,
      Ideal.exp ((∑ d' : Fin 64, (qf n d' * cE) * kf n' d')
        - (Finset.univ : Finset (Fin 1024)).fold max nE (fun j => ∑ d' : Fin 64, (qf n d' * cE) * kf j d'))
      * vf n')
    (∑ k : Fin 1024,
      Ideal.exp ((∑ d' : Fin 64, (qf n d' * cE) * kf k d')
        - (Finset.univ : Finset (Fin 1024)).fold max nE (fun j => ∑ d' : Fin 64, (qf n d' * cE) * kf j d')))

theorem headVal_eq_attn (x0 x1 x2 : Vec Ideal S1x1x1024x128 .bf16) (ln : Fin 64 → Fin 128) (n : Fin 1024) (d : Fin 64) :
    headVal x0 x1 x2 ln n d
      = attnVal (fun a d' => x0 (ix4 (0 : Fin 1) (0 : Fin 1) a (ln d'))) (fun a d' => x1 (ix4 (0 : Fin 1) (0 : Fin 1) a (ln d')))
          (fun a => x2 (ix4 (0 : Fin 1) (0 : Fin 1) a (ln d))) n := rfl

theorem P1c_eq_attn (a3 : Cert.Attn.A3T) (b : Fin 8) (n : Fin 1024) (e : Fin 1024) :
    Cert.Attn.P1c a3 b n e
      = attnVal (Cert.Attn.blkE a3 0 b e) (Cert.Attn.blkE a3 1 b e) (fun n' => Cert.Attn.blkE a3 2 b e n' (Cert.Attn.laneOf e)) n := rfl

/-- The stored block's entry is the array-level attention, once the three blocks are known to be blocks (b, hp),
    (8 + b, hp), (16 + b, hp) of the array. -/
theorem headVal_eq_P1c (a3 : Cert.Attn.A3T) (x0 x1 x2 : Vec Ideal S1x1x1024x128 .bf16) (b hp : ℕ) (hb : b < 8) (hhp : hp < 8)
    (h0 : ∀ (n' : Fin 1024) (l : Fin 128), x0 (ix4 (0 : Fin 1) (0 : Fin 1) n' l) = a3 (ix4 (⟨b, by omega⟩ : Fin 24) (⟨hp, hhp⟩ : Fin 8) n' l))
    (h1 : ∀ (n' : Fin 1024) (l : Fin 128), x1 (ix4 (0 : Fin 1) (0 : Fin 1) n' l) = a3 (ix4 (⟨8 + b, by omega⟩ : Fin 24) (⟨hp, hhp⟩ : Fin 8) n' l))
    (h2 : ∀ (n' : Fin 1024) (l : Fin 128), x2 (ix4 (0 : Fin 1) (0 : Fin 1) n' l) = a3 (ix4 (⟨16 + b, by omega⟩ : Fin 24) (⟨hp, hhp⟩ : Fin 8) n' l))
    (n : Fin 1024) (e : Fin 128) :
    headVal x0 x1 x2 (fun d' => (⟨e.val / 64 * 64 + d'.val, by omega⟩ : Fin 128)) n (⟨e.val % 64, by omega⟩ : Fin 64)
      = Cert.Attn.P1c a3 ⟨b, hb⟩ n (⟨hp * 128 + e.val, by omega⟩ : Fin 1024) := by
  rw [headVal_eq_attn, P1c_eq_attn]
  have hq : (fun (a : Fin 1024) (d' : Fin 64) => x0 (ix4 (0 : Fin 1) (0 : Fin 1) a (⟨e.val / 64 * 64 + d'.val, by omega⟩ : Fin 128)))
      = Cert.Attn.blkE a3 0 ⟨b, hb⟩ (⟨hp * 128 + e.val, by omega⟩ : Fin 1024) := by
    funext a d'
    rw [h0]
    unfold Cert.Attn.blkE Cert.Attn.laneIn
    refine congrArg a3 (funext fun ax => Fin.ext ?_)
    match ax with
    | ⟨0, _⟩ => show b = 0 * 8 + b; omega
    | ⟨1, _⟩ => show hp = (hp * 128 + e.val) / 128; omega
    | ⟨2, _⟩ => rfl
    | ⟨3, _⟩ => show e.val / 64 * 64 + d'.val = (hp * 128 + e.val) % 128 / 64 * 64 + d'.val; omega
  have hk : (fun (a : Fin 1024) (d' : Fin 64) => x1 (ix4 (0 : Fin 1) (0 : Fin 1) a (⟨e.val / 64 * 64 + d'.val, by omega⟩ : Fin 128)))
      = Cert.Attn.blkE a3 1 ⟨b, hb⟩ (⟨hp * 128 + e.val, by omega⟩ : Fin 1024) := by
    funext a d'
    rw [h1]
    unfold Cert.Attn.blkE Cert.Attn.laneIn
    refine congrArg a3 (funext fun ax => Fin.ext ?_)
    match ax with
    | ⟨0, _⟩ => show 8 + b = 1 * 8 + b; omega
    | ⟨1, _⟩ => show hp = (hp * 128 + e.val) / 128; omega
    | ⟨2, _⟩ => rfl
    | ⟨3, _⟩ => show e.val / 64 * 64 + d'.val = (hp * 128 + e.val) % 128 / 64 * 64 + d'.val; omega
  have hv : (fun (a : Fin 1024) => x2 (ix4 (0 : Fin 1) (0 : Fin 1) a (⟨e.val / 64 * 64 + (⟨e.val % 64, by omega⟩ : Fin 64).val, by omega⟩ : Fin 128)))
      = fun n' => Cert.Attn.blkE a3 2 ⟨b, hb⟩ (⟨hp * 128 + e.val, by omega⟩ : Fin 1024) n' (Cert.Attn.laneOf (⟨hp * 128 + e.val, by omega⟩ : Fin 1024)) := by
    funext a
    rw [h2]
    unfold Cert.Attn.blkE Cert.Attn.laneIn Cert.Attn.laneOf
    refine congrArg a3 (funext fun ax => Fin.ext ?_)
    match ax with
    | ⟨0, _⟩ => show 16 + b = 2 * 8 + b; omega
    | ⟨1, _⟩ => show hp = (hp * 128 + e.val) / 128; omega
    | ⟨2, _⟩ => rfl
    | ⟨3, _⟩ => show e.val / 64 * 64 + e.val % 64 = (hp * 128 + e.val) % 128 / 64 * 64 + (hp * 128 + e.val) % 64; omega
  exact congrFun (congr (congr (congrArg attnVal hq) hk) hv) n

end Cert.KernelIdeal.Att

end
-- ==== Proof.Value1D.lean ====
/-
  The attention region, from blocks to the array.

  The relations between the region's four index maps are decided over its 64 grid points; with them the three input
  blocks at a point are read at their places in the projected array, the stored block is block (b, 0, hp) of `P1` of
  that array, and the output's blocks cover the output array.
-/
import proofs.«138104_j6004364280063_2_alg».proof.Proof.Value1C

set_option maxRecDepth 16384

noncomputable section

open scoped BigOperators

namespace Cert.KernelIdeal.Att

open Cert.KernelIdeal Cert.KernelIdeal.Gen Cert.KernelIdeal.AttV
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the grid: the query, key and value blocks are blocks (b, hp), (8 + b, hp), (16 + b, hp) where
    the output block is (b, 0, hp). -/
theorem idx_facts1 : ∀ t : Fin cfg1.N,
    win1_0.index t (0 : Fin 4) = win1_3.index t (0 : Fin 3) ∧ win1_0.index t (1 : Fin 4) = win1_3.index t (2 : Fin 3)
    ∧ win1_0.index t (2 : Fin 4) = 0 ∧ win1_0.index t (3 : Fin 4) = 0
    ∧ win1_1.index t (0 : Fin 4) = 8 + win1_3.index t (0 : Fin 3) ∧ win1_1.index t (1 : Fin 4) = win1_3.index t (2 : Fin 3)
    ∧ win1_1.index t (2 : Fin 4) = 0 ∧ win1_1.index t (3 : Fin 4) = 0
    ∧ win1_2.index t (0 : Fin 4) = 16 + win1_3.index t (0 : Fin 3) ∧ win1_2.index t (1 : Fin 4) = win1_3.index t (2 : Fin 3)
    ∧ win1_2.index t (2 : Fin 4) = 0 ∧ win1_2.index t (3 : Fin 4) = 0
    ∧ win1_3.index t (1 : Fin 3) = 0 ∧ win1_3.index t (0 : Fin 3) ≤ 7 ∧ win1_3.index t (2 : Fin 3) ≤ 7 :=
  (by decide +kernel : ∀ t : Fin grid1.N, _)

/-- Every output block is some point's. -/
theorem idx_onto1 : ∀ (q0 : Fin 8) (q2 : Fin 8), ∃ t : Fin cfg1.N, win1_3.index t = ![q0.val, 0, q2.val] :=
  (by decide +kernel : ∀ (q0 : Fin 8) (q2 : Fin 8), ∃ t : Fin grid1.N, win1_3.index t = ![q0.val, 0, q2.val])

/-- The stored block at any of its indices. -/
theorem blockOut_at (x0 x1 x2 : Vec Ideal S1x1x1024x128 .bf16) (y : S1x1024x128.Idx) :
    blockOut x0 x1 x2 y
      = headVal x0 x1 x2 (fun d' => (⟨(y 2).val / 64 * 64 + d'.val, by have := (y 2).isLt; change (y 2).val < 128 at this; omega⟩ : Fin 128))
          (⟨(y 1).val, (y 1).isLt⟩ : Fin 1024) (⟨(y 2).val % 64, by omega⟩ : Fin 64) := by
  obtain ⟨u, n, e, rfl⟩ : ∃ (u : Fin 1) (n : Fin 1024) (e : Fin 128), y = ix3 u n e := ⟨y 0, y 1, y 2, eq_ix3 y⟩
  have hu : u = 0 := Subsingleton.elim _ _
  subst hu
  exact blockOut_apply x0 x1 x2 n e

/-- The query block's entry at its place in the projected array. -/
theorem iblk1_0_at (c : Dev nD) (t : Fin cfg1.N) (b hp : ℕ) (hb : b < 8) (hhp : hp < 8)
    (e0 : win1_0.index t (0 : Fin 4) = b) (e1 : win1_0.index t (1 : Fin 4) = hp)
    (e2 : win1_0.index t (2 : Fin 4) = 0) (e3 : win1_0.index t (3 : Fin 4) = 0) (n' : Fin 1024) (l : Fin 128) :
    iblk1 V c 0 t (ix4 (0 : Fin 1) (0 : Fin 1) n' l) = V c main_v3 (ix4 (⟨b, by omega⟩ : Fin 24) (⟨hp, hhp⟩ : Fin 8) n' l) := by
  show V c main_v3 (((cfg1.win 0).blk t).view.emb (ix4 (0 : Fin 1) (0 : Fin 1) n' l)) = _
  refine congrArg (V c main_v3) (funext fun a => Fin.ext ?_)
  match a with
  | ⟨0, _⟩ => show win1_0.index t (0 : Fin 4) * 1 + 1 * 0 = b; omega
  | ⟨1, _⟩ => show win1_0.index t (1 : Fin 4) * 1 + 1 * 0 = hp; omega
  | ⟨2, _⟩ => show win1_0.index t (2 : Fin 4) * 1024 + 1 * n'.val = n'.val; omega
  | ⟨3, _⟩ => show win1_0.index t (3 : Fin 4) * 128 + 1 * l.val = l.val; omega

/-- The key block's. -/
theorem iblk1_1_at (c : Dev nD) (t : Fin cfg1.N) (b hp : ℕ) (hb : b < 8) (hhp : hp < 8)
    (e0 : win1_1.index t (0 : Fin 4) = 8 + b) (e1 : win1_1.index t (1 : Fin 4) = hp)
    (e2 : win1_1.index t (2 : Fin 4) = 0) (e3 : win1_1.index t (3 : Fin 4) = 0) (n' : Fin 1024) (l : Fin 128) :
    iblk1 V c 1 t (ix4 (0 : Fin 1) (0 : Fin 1) n' l) = V c main_v3 (ix4 (⟨8 + b, by omega⟩ : Fin 24) (⟨hp, hhp⟩ : Fin 8) n' l) := by
  show V c main_v3 (((cfg1.win 1).blk t).view.emb (ix4 (0 : Fin 1) (0 : Fin 1) n' l)) = _
  refine congrArg (V c main_v3) (funext fun a => Fin.ext ?_)
  match a with
  | ⟨0, _⟩ => show win1_1.index t (0 : Fin 4) * 1 + 1 * 0 = 8 + b; omega
  | ⟨1, _⟩ => show win1_1.index t (1 : Fin 4) * 1 + 1 * 0 = hp; omega
  | ⟨2, _⟩ => show win1_1.index t (2 : Fin 4) * 1024 + 1 * n'.val = n'.val; omega
  | ⟨3, _⟩ => show win1_1.index t (3 : Fin 4) * 128 + 1 * l.val = l.val; omega

/-- The value block's. -/
theorem iblk1_2_at (c : Dev nD) (t : Fin cfg1.N) (b hp : ℕ) (hb : b < 8) (hhp : hp < 8)
    (e0 : win1_2.index t (0 : Fin 4) = 16 + b) (e1 : win1_2.index t (1 : Fin 4) = hp)
    (e2 : win1_2.index t (2 : Fin 4) = 0) (e3 : win1_2.index t (3 : Fin 4) = 0) (n' : Fin 1024) (l : Fin 128) :
    iblk1 V c 2 t (ix4 (0 : Fin 1) (0 : Fin 1) n' l) = V c main_v3 (ix4 (⟨16 + b, by omega⟩ : Fin 24) (⟨hp, hhp⟩ : Fin 8) n' l) := by
  show V c main_v3 (((cfg1.win 2).blk t).view.emb (ix4 (0 : Fin 1) (0 : Fin 1) n' l)) = _
  refine congrArg (V c main_v3) (funext fun a => Fin.ext ?_)
  match a with
  | ⟨0, _⟩ => show win1_2.index t (0 : Fin 4) * 1 + 1 * 0 = 16 + b; omega
  | ⟨1, _⟩ => show win1_2.index t (1 : Fin 4) * 1 + 1 * 0 = hp; omega
  | ⟨2, _⟩ => show win1_2.index t (2 : Fin 4) * 1024 + 1 * n'.val = n'.val; omega
  | ⟨3, _⟩ => show win1_2.index t (3 : Fin 4) * 128 + 1 * l.val = l.val; omega

/-- What point `t` writes back is block `t` of `P1` of the projected array. -/
theorem flushed1_eq (c : Dev nD) (t : Fin cfg1.N) :
    (dat1 V c).flushed 3 t = ((cfg1.win 3).blk t).view.read (Elt Ideal) (Cert.Attn.P1 (V c main_v3)) := by
  show (cfg1.win 3).cut (grid1.coords t) ((dat1 V c).after 3 t) = _
  rw [show (dat1 V c).after 3 t = out1_3 (iblk1 V c 0 t) (iblk1 V c 1 t) (iblk1 V c 2 t) from by dsimp only [dat1]]
  unfold out1_3
  rw [View.canon_unit_zero hz3]
  simp only [View.ld_unit_zero (S := S1x1x1024x128) hz4]
  obtain ⟨e00, e01, e02, e03, e10, e11, e12, e13, e20, e21, e22, e23, e31, b7, h7⟩ := idx_facts1 t
  funext j
  show blockOut (iblk1 V c 0 t) (iblk1 V c 1 t) (iblk1 V c 2 t) j = Cert.Attn.P1 (V c main_v3) (((cfg1.win 3).blk t).view.emb j)
  refine (blockOut_at _ _ _ j).trans ?_
  have hj1 : (j 1).val < 1024 := (j 1).isLt
  have hj2 : (j 2).val < 128 := (j 2).isLt
  refine (headVal_eq_P1c (V c main_v3) _ _ _ (win1_3.index t (0 : Fin 3)) (win1_3.index t (2 : Fin 3)) (by omega) (by omega)
    (iblk1_0_at V c t _ _ (by omega) (by omega) e00 e01 e02 e03)
    (iblk1_1_at V c t _ _ (by omega) (by omega) e10 e11 e12 e13)
    (iblk1_2_at V c t _ _ (by omega) (by omega) e20 e21 e22 e23)
    (⟨(j 1).val, hj1⟩ : Fin 1024) (⟨(j 2).val, hj2⟩ : Fin 128)).trans ?_
  show Cert.Attn.P1c (V c main_v3) _ _ _ = Cert.Attn.P1c (V c main_v3) ((((cfg1.win 3).blk t).view.emb j) 0) ((((cfg1.win 3).blk t).view.emb j) 1) ((((cfg1.win 3).blk t).view.emb j) 2)
  have a0 : (⟨win1_3.index t (0 : Fin 3), by omega⟩ : Fin 8) = (((cfg1.win 3).blk t).view.emb j) 0 :=
    Fin.ext (by show win1_3.index t (0 : Fin 3) = win1_3.index t (0 : Fin 3) * 1 + 1 * (j 0).val; have : (j 0).val < 1 := (j 0).isLt; omega)
  have a1 : (⟨(j 1).val, hj1⟩ : Fin 1024) = (((cfg1.win 3).blk t).view.emb j) 1 :=
    Fin.ext (by show (j 1).val = win1_3.index t (1 : Fin 3) * 1024 + 1 * (j 1).val; omega)
  have a2 : (⟨win1_3.index t (2 : Fin 3) * 128 + (j 2).val, by omega⟩ : Fin 1024) = (((cfg1.win 3).blk t).view.emb j) 2 :=
    Fin.ext (by show win1_3.index t (2 : Fin 3) * 128 + (j 2).val = win1_3.index t (2 : Fin 3) * 128 + 1 * (j 2).val; omega)
  rw [a0, a1, a2]

/-- An index of the output array is in point `t`'s block iff each coordinate is in the block's range on its axis. -/
theorem mem_blk1 (t : Fin cfg1.N) (i : S8x1024x1024.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v4).slice (win1_3.rect t)).set ↔ _
  rw [View.set_slice_whole, Rect.mem_set_unit]
  exact Iff.rfl

/-- The output's blocks cover the output array. -/
theorem cover1 (i : S8x1024x1024.Idx) : ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  obtain ⟨t, ht⟩ := idx_onto1 ⟨(i 0).val, hi0⟩ ⟨(i 2).val / 128, by omega⟩
  have q0 : win1_3.index t (0 : Fin 3) = (i 0).val := congrFun ht 0
  have q1 : win1_3.index t (1 : Fin 3) = 0 := congrFun ht 1
  have q2 : win1_3.index t (2 : Fin 3) = (i 2).val / 128 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- After the region the output array is `P1` of the projected array. -/
theorem final1 (c : Dev nD) : (dat1 V c).arrAt 3 cfg1.N = Cert.Attn.P1 (V c main_v3) :=
  (dat1 V c).arrAt_eq_of_cover 3 (Cert.Attn.P1 (V c main_v3)) (fun t _ => flushed1_eq V c t) cover1

end Cert.KernelIdeal.Att

end
-- ==== Proof.Value2.lean ====
/-
  The value of the third kernel region over the extended reals: after its eight grid points have written their blocks
  back, the output array is the output projection `P2` of the three input arrays as the region finds them.

  * The body's payload at an entry (r, f) of its block is `(∑ c, x0[r, c] · x1[f, c]) + x2[0, f]`: the matrix product
    against the transposed second operand into a zero accumulator, plus the broadcast bias row.
  * Point `t` reads rows `1024·t … 1024·t + 1023` of the first array, the whole second and third arrays, and writes
    rows `1024·t … 1024·t + 1023` of the output; the eight blocks cover the output's 8192 rows.
-/
import proofs.«138104_j6004364280063_2_alg».proof.Proof.DataI
import proofs.«138104_j6004364280063_2_alg».proof.Proof.SpecK
import proofs.«138104_j6004364280063_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Att

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The payload at an entry -/

abbrev D2 := dot_S1024x1024_S1024x1024_S1024x1024_1_1_0_0_n_n

theorem D2_lhs0 (i : S1024x1024.Idx) (q : D2.contr.Idx) : (D2.lhsIdx i q 0).val = (i 0).val := by
  unfold DotDims.lhsIdx
  rw [dif_neg (show ¬(0 : Fin S1024x1024.rank) ∈ D2.lhsBatch by decide),
    dif_pos (show (0 : Fin S1024x1024.rank) ∈ D2.lhsNonContracting by decide)]
  rfl

theorem D2_lhs1 (i : S1024x1024.Idx) (q : D2.contr.Idx) : (D2.lhsIdx i q 1).val = (q ⟨0, by decide⟩).val :=
  D2.lhsIdx_val_of_single rfl i q

theorem D2_rhs0 (i : S1024x1024.Idx) (q : D2.contr.Idx) : (D2.rhsIdx i q 0).val = (i 1).val := by
  unfold DotDims.rhsIdx
  rw [dif_neg (show ¬(0 : Fin S1024x1024.rank) ∈ D2.rhsBatch by decide),
    dif_pos (show (0 : Fin S1024x1024.rank) ∈ D2.rhsNonContracting by decide)]
  rfl

theorem D2_rhs1 (i : S1024x1024.Idx) (q : D2.contr.Idx) : (D2.rhsIdx i q 1).val = (q ⟨0, by decide⟩).val :=
  D2.rhsIdx_val_of_single rfl i q

/-- The body's payload at entry (r, f): the product of row `r` of the first block with row `f` of the second, plus
    entry `f` of the bias row. -/
theorem pay2_apply (x0 x1 : Vec Ideal S1024x1024 .bf16) (x2 : Vec Ideal S1x1024 .f32) (r f : Fin 1024) :
    k2_pay1 x0 x1 x2 (ix2 r f) = (∑ c : Fin 1024, x0 (ix2 r c) * x1 (ix2 f c)) + x2 (ix2 (0 : Fin 1) f) := by
  unfold k2_pay1
  rw [addf_apply, shapeCast_self, shapeCast_self, shapeCast_self, broadcastTo_1b_ab_apply]
  rw [Cert.LibMatmulNT.matmul_nt_zero_ix2 D2 none rfl rfl D2_lhs0 D2_lhs1 D2_rhs0 D2_rhs1]

/-! ## What a point writes back -/

theorem hz2 : (![0, 0] : Fin 2 → Nat) = fun _ => 0 := funext fun a => by fin_cases a <;> rfl

/-- The payload over blocks that are read off three arrays: block row `r` of the first block is row `R` of the first
    array, the second and third blocks are the second and third arrays. -/
theorem point2 (a5 : Cert.Attn.A2T) (a1 : Cert.Attn.WpT) (a6 : Cert.Attn.A6T)
    (x0 x1 : Vec Ideal S1024x1024 .bf16) (x2 : Vec Ideal S1x1024 .f32) (R : Fin 8192) (r f : Fin 1024)
    (h0 : ∀ c : Fin 1024, x0 (ix2 r c) = a5 (ix2 R c))
    (h1 : ∀ c : Fin 1024, x1 (ix2 f c) = a1 (ix2 f c))
    (h2 : x2 (ix2 (0 : Fin 1) f) = a6 (ix2 (0 : Fin 1) f)) :
    k2_pay1 x0 x1 x2 (ix2 r f) = Cert.Attn.P2 a5 a1 a6 (ix2 R f) := by
  rw [pay2_apply]
  show _ = Cert.Attn.P2c a5 a1 a6 R f
  unfold Cert.Attn.P2c
  simp only [h0, h1, h2]

/-- The printed index maps, decided over the eight points: the first input and the output move together along the rows,
    the other two inputs stay at block zero. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every block of rows is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

variable (V : (c : Dev nD) → (b : Ref sig .tc) → Buf (Elt Ideal) ((c : Thread nD τ).loc b))

/-- The output array's target: the output projection of the three input arrays as the region finds them. -/
abbrev G2 (c : Dev nD) : Cert.Attn.A2T := Cert.Attn.P2 (V c main_v5) (V c main_v1) (V c main_v6)

/-- What point `t` writes back is block `t` of the target. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  dsimp only [dat2]
  unfold out2_3
  rw [View.canon_unit_zero hz2]
  simp only [View.ld_unit_zero (S := S1024x1024) hz2, View.ld_unit_zero (S := S1x1024) hz2]
  obtain ⟨e0, e1, e2, e3, e4, e5, e6, e7⟩ := idx_facts2 t
  funext j
  obtain ⟨r, f, rfl⟩ : ∃ (r f : Fin 1024), j = ix2 r f := ⟨j 0, j 1, eq_ix2 j⟩
  have hr := r.isLt
  have hf := f.isLt
  show k2_pay1 (iblk2 V c 0 t) (iblk2 V c 1 t) (iblk2 V c 2 t) (ix2 r f)
    = G2 V c (((cfg2.win 3).blk t).view.emb (ix2 r f))
  have hR : win2_3.index t (0 : Fin 2) * 1024 + r.val < 8192 := by omega
  have hemb : ((cfg2.win 3).blk t).view.emb (ix2 r f)
      = ix2 (⟨win2_3.index t (0 : Fin 2) * 1024 + r.val, hR⟩ : Fin 8192) f := by
    funext a; apply Fin.ext
    match a with
    | ⟨0, _⟩ => show win2_3.index t (0 : Fin 2) * 1024 + 1 * r.val = win2_3.index t (0 : Fin 2) * 1024 + r.val; omega
    | ⟨1, _⟩ => show win2_3.index t (1 : Fin 2) * 1024 + 1 * f.val = f.val; omega
  rw [hemb]
  refine point2 (V c main_v5) (V c main_v1) (V c main_v6) _ _ _ _ r f (fun k => ?_) (fun k => ?_) ?_
  · have hk := k.isLt
    show V c main_v5 (((cfg2.win 0).blk t).view.emb (ix2 r k)) = _
    refine congrArg (V c main_v5) ?_
    funext a; apply Fin.ext
    match a with
    | ⟨0, _⟩ => show win2_0.index t (0 : Fin 2) * 1024 + 1 * r.val = win2_3.index t (0 : Fin 2) * 1024 + r.val; omega
    | ⟨1, _⟩ => show win2_0.index t (1 : Fin 2) * 1024 + 1 * k.val = k.val; omega
  · have hk := k.isLt
    show V c main_v1 (((cfg2.win 1).blk t).view.emb (ix2 f k)) = _
    refine congrArg (V c main_v1) ?_
    funext a; apply Fin.ext
    match a with
    | ⟨0, _⟩ => show win2_1.index t (0 : Fin 2) * 1024 + 1 * f.val = f.val; omega
    | ⟨1, _⟩ => show win2_1.index t (1 : Fin 2) * 1024 + 1 * k.val = k.val; omega
  · show V c main_v6 (((cfg2.win 2).blk t).view.emb (ix2 (0 : Fin 1) f)) = _
    refine congrArg (V c main_v6) ?_
    funext a; apply Fin.ext
    match a with
    | ⟨0, _⟩ => show win2_2.index t (0 : Fin 2) * 1 + 1 * 0 = 0; omega
    | ⟨1, _⟩ => show win2_2.index t (1 : Fin 2) * 1024 + 1 * f.val = f.val; omega

/-! ## The array after the run -/

/-- An index of the output array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v7).slice (win2_3.rect t)).set ↔ _
  rw [View.set_slice_whole, Rect.mem_set_unit]
  exact Iff.rfl

/-- Every index of the output array lies in the block of the point of its block of rows. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- The output array after the region's run is the output projection of the three input arrays. -/
theorem final2 (c : Dev nD) :
    (dat2 V c).arrAt 3 cfg2.N = Cert.Attn.P2 (V c main_v5) (V c main_v1) (V c main_v6) :=
  (dat2 V c).arrAt_eq_of_cover 3 (G2 V c) (fun t _ => flushed2_eq V c t) cover2

end Cert.KernelIdeal.Att

end
-- ==== Proof.Chain.lean ====
/-
  The buffer contents along @main at the extended reals: each boundary's array as a function of the launch arrays.

  A host reshape reads the same row-major position, so [8, 1024, 1024] → [8192, 1024] is `rows`, its inverse `unrows`,
  [1024] → [1, 1024] is `oneRow`; a change of float format is the identity. With each region's array-level value
  (`final0`, `final1`, `final2`) the result array is `chain` of the four inputs.
-/
import proofs.«138104_j6004364280063_2_alg».proof.Proof.DataI
import proofs.«138104_j6004364280063_2_alg».proof.Proof.SpecK
import proofs.«138104_j6004364280063_2_alg».proof.Proof.Value0
import proofs.«138104_j6004364280063_2_alg».proof.Proof.Value1D
import proofs.«138104_j6004364280063_2_alg».proof.Proof.Value2
import Idealize.ShloMosaic.Lib.StableHlo.Run
import Idealize.ShloMosaic.Lib.ValueLayout

set_option maxRecDepth 16384

noncomputable section

namespace Cert.KernelIdeal.Att

open Cert.KernelIdeal Cert.KernelIdeal.Gen
open Idealize.ShloMosaic Idealize.ShloMosaic.TcCoe Idealize.ShloMosaic.ValueIdx Idealize.ShloMosaic.StableHlo
open Idealize.SL.Sem

/-! ## The reshapes -/

theorem cast_rows (a : S8x1024x1024.Idx → EReal) :
    shapeCast S8192x1024 a shapeCasts_S8x1024x1024_S8192x1024 = Cert.Attn.rows a := by
  funext i
  obtain ⟨r, cc, rfl⟩ : ∃ (r : Fin 8192) (cc : Fin 1024), i = ix2 r cc := ⟨i 0, i 1, eq_ix2 i⟩
  show shapeCast S8192x1024 a shapeCasts_S8x1024x1024_S8192x1024 (ix2 r cc)
    = a (ix3 (⟨r.val / 1024, by omega⟩ : Fin 8) (⟨r.val % 1024, by omega⟩ : Fin 1024) cc)
  refine shapeCast_apply a _ _ _ ?_
  rw [Shape.rowMajor_val_three, Shape.rowMajor_val_two]
  show (r.val / 1024 * 1024 + r.val % 1024) * 1024 + cc.val = r.val * 1024 + cc.val
  omega

theorem cast_unrows (a : S8192x1024.Idx → EReal) :
    shapeCast S8x1024x1024 a shapeCasts_S8192x1024_S8x1024x1024 = Cert.Attn.unrows a := by
  funext i
  obtain ⟨b, n, f, rfl⟩ : ∃ (b : Fin 8) (n : Fin 1024) (f : Fin 1024), i = ix3 b n f := ⟨i 0, i 1, i 2, eq_ix3 i⟩
  show shapeCast S8x1024x1024 a shapeCasts_S8192x1024_S8x1024x1024 (ix3 b n f)
    = a (ix2 (⟨b.val * 1024 + n.val, by omega⟩ : Fin 8192) f)
  refine shapeCast_apply a _ _ _ ?_
  rw [Shape.rowMajor_val_three, Shape.rowMajor_val_two]
  rfl

theorem cast_oneRow (a : S1024.Idx → EReal) :
    shapeCast S1x1024 a shapeCasts_S1024_S1x1024 = Cert.Attn.oneRow a := by
  funext i
  obtain ⟨u, f, rfl⟩ : ∃ (u : Fin 1) (f : Fin 1024), i = ix2 u f := ⟨i 0, i 1, eq_ix2 i⟩
  have hu : u = 0 := Subsingleton.elim _ _
  subst hu
  exact shapeCast_a_1a_apply a shapeCasts_S1024_S1x1024 (0 : Fin 1) f

/-! ## The boundaries -/

variable (m : (ℓ : Loc nD τ sig) → Buf (Elt Ideal) ℓ)

theorem W1_v2 (c : Dev nD) : W1 m c (Proc.devRef .tc main_v2) = Cert.Attn.rows (m ((c : Thread nD τ).loc main_arg0)) := by
  show StableHlo.after hostOps0 (W0 m c) (Proc.devRef .tc main_v2) = _
  after_results
  exact cast_rows _

theorem W1_v0 (c : Dev nD) : W1 m c (Proc.devRef .tc main_v0) = m ((c : Thread nD τ).loc main_arg1) := by
  show StableHlo.after hostOps0 (W0 m c) (Proc.devRef .tc main_v0) = _
  after_results
  rfl

theorem W1_v1 (c : Dev nD) : W1 m c (Proc.devRef .tc main_v1) = m ((c : Thread nD τ).loc main_arg2) := by
  show StableHlo.after hostOps0 (W0 m c) (Proc.devRef .tc main_v1) = _
  after_results
  rfl

theorem W1_arg3 (c : Dev nD) : W1 m c (Proc.devRef .tc main_arg3) = m ((c : Thread nD τ).loc main_arg3) := by
  show StableHlo.after hostOps0 (W0 m c) (Proc.devRef .tc main_arg3) = _
  after_results

theorem W2_v3 (c : Dev nD) :
    W2 m c (Proc.devRef .tc main_v3) = Cert.Attn.P0 (Cert.Attn.rows (m ((c : Thread nD τ).loc main_arg0))) (m ((c : Thread nD τ).loc main_arg1)) := by
  unfold W2
  rw [Function.update_self, final0 (V1 m) c]
  show Cert.Attn.P0 (W1 m c (Proc.devRef .tc main_v2)) (W1 m c (Proc.devRef .tc main_v0)) = _
  rw [W1_v2, W1_v0]

theorem W3_v4 (c : Dev nD) : W3 m c (Proc.devRef .tc main_v4) = Cert.Attn.P1 (W2 m c (Proc.devRef .tc main_v3)) := by
  unfold W3
  rw [Function.update_self, final1 (V2 m) c]

theorem W3_v1 (c : Dev nD) : W3 m c (Proc.devRef .tc main_v1) = m ((c : Thread nD τ).loc main_arg2) := by
  unfold W3 W2
  rw [Function.update_of_ne (StableHlo.devRef_ne_of_ne (by decide)), Function.update_of_ne (StableHlo.devRef_ne_of_ne (by decide))]
  exact W1_v1 m c

theorem W3_arg3 (c : Dev nD) : W3 m c (Proc.devRef .tc main_arg3) = m ((c : Thread nD τ).loc main_arg3) := by
  unfold W3 W2
  rw [Function.update_of_ne (StableHlo.devRef_ne_of_ne (by decide)), Function.update_of_ne (StableHlo.devRef_ne_of_ne (by decide))]
  exact W1_arg3 m c

theorem W4_v5 (c : Dev nD) : W4 m c (Proc.devRef .tc main_v5) = Cert.Attn.rows (W3 m c (Proc.devRef .tc main_v4)) := by
  show StableHlo.after hostOps2 (W3 m c) (Proc.devRef .tc main_v5) = _
  after_results
  exact cast_rows _

theorem W4_v6 (c : Dev nD) : W4 m c (Proc.devRef .tc main_v6) = Cert.Attn.oneRow (m ((c : Thread nD τ).loc main_arg3)) := by
  show StableHlo.after hostOps2 (W3 m c) (Proc.devRef .tc main_v6) = _
  after_results
  rw [W3_arg3]
  exact cast_oneRow _

theorem W4_v1 (c : Dev nD) : W4 m c (Proc.devRef .tc main_v1) = m ((c : Thread nD τ).loc main_arg2) := by
  show StableHlo.after hostOps2 (W3 m c) (Proc.devRef .tc main_v1) = _
  after_results
  exact W3_v1 m c

theorem W5_v7 (c : Dev nD) :
    W5 m c (Proc.devRef .tc main_v7) = Cert.Attn.P2 (W4 m c (Proc.devRef .tc main_v5)) (W4 m c (Proc.devRef .tc main_v1)) (W4 m c (Proc.devRef .tc main_v6)) := by
  unfold W5
  rw [Function.update_self, final2 (V4 m) c]

/-- The result array is the chain of the three kernels on the launch arrays. -/
theorem W6_v8 (c : Dev nD) :
    W6 m c (Proc.devRef .tc main_v8)
      = Cert.Attn.chain (m ((c : Thread nD τ).loc main_arg0)) (m ((c : Thread nD τ).loc main_arg1)) (m ((c : Thread nD τ).loc main_arg2)) (m ((c : Thread nD τ).loc main_arg3)) := by
  show StableHlo.after hostOps3 (W5 m c) (Proc.devRef .tc main_v8) = _
  after_results
  rw [W5_v7, W4_v5, W4_v1, W4_v6, W3_v4, W2_v3]
  exact cast_unrows _

end Cert.KernelIdeal.Att

end
-- ==== Proof.Compose.lean ====
/-
  The chain of the three whole-array functions is the kernels' arrangement `K`.

  Everything is unfolding and index arithmetic. Row `b·1024 + n` of `rows a` is `a[b, n, ·]`. For a channel `e` the head
  is `e / 64`; the second function reads head pair `e / 128` at lanes `(e mod 128) / 64 · 64 + d'`, and the weight row
  `(s·8 + e / 128)·128 + (e mod 128) / 64 · 64 + d'` is `s·1024 + (e / 64)·64 + d'`, row `d'` of head `e / 64` of
  projection `s`. So the block entries the second function reads are the projected entries `qkv`, its scores, exponentials
  and quotient are those of `attK`, and the last sums agree term by term.
-/
import proofs.«138104_j6004364280063_2_alg».proof.Proof.SpecK

noncomputable section

open scoped BigOperators
open Idealize.ShloMosaic Idealize.ShloMosaic.ValueIdx

namespace Cert.Attn

/-! ## The functions at an index given by its coordinates -/

theorem P0_ix4 (a2 : A2T) (a0 : WqT) (sb : Fin 24) (hp : Fin 8) (n : Fin 1024) (l : Fin 128) :
    P0 a2 a0 (ix4 sb hp n l) = P0c a2 a0 sb hp n l := rfl

theorem P1_ix3 (a3 : A3T) (b : Fin 8) (n e : Fin 1024) : P1 a3 (ix3 b n e) = P1c a3 b n e := rfl

theorem P2_ix2 (a5 : A2T) (a1 : WpT) (a6 : A6T) (r : Fin 8192) (f : Fin 1024) :
    P2 a5 a1 a6 (ix2 r f) = P2c a5 a1 a6 r f := rfl

theorem rows_ix2 (a : XT) (r : Fin 8192) (c : Fin 1024) :
    rows a (ix2 r c)
      = a (ix3 (⟨r.val / 1024, by have := r.isLt; omega⟩ : Fin 8) (⟨r.val % 1024, by omega⟩ : Fin 1024) c) := rfl

theorem unrows_ix3 (a : A2T) (b : Fin 8) (n f : Fin 1024) :
    unrows a (ix3 b n f)
      = a (ix2 (⟨b.val * 1024 + n.val, by have := b.isLt; have := n.isLt; omega⟩ : Fin 8192) f) := rfl

theorem oneRow_ix2 (a : BT) (z : Fin 1) (f : Fin 1024) : oneRow a (ix2 z f) = a (ix1 f) := rfl

theorem ix2_congr {n0 n1 : Nat} {a a' : Fin n0} {b b' : Fin n1} (ha : a = a') (hb : b = b') :
    ix2 a b = ix2 a' b' := by subst ha; subst hb; rfl

theorem ix3_congr {n0 n1 n2 : Nat} {a a' : Fin n0} {b b' : Fin n1} {c c' : Fin n2}
    (ha : a = a') (hb : b = b') (hc : c = c') : ix3 a b c = ix3 a' b' c' := by
  subst ha; subst hb; subst hc; rfl

/-- Row `b·1024 + n` of the rows of `a` is `a[b, n, ·]`. -/
theorem rows_at (a : XT) (b : Fin 8) (n c : Fin 1024) (h : b.val * 1024 + n.val < 8192) :
    rows a (ix2 (⟨b.val * 1024 + n.val, h⟩ : Fin 8192) c) = a (ix3 b n c) := by
  rw [rows_ix2]
  refine congrArg a (ix3_congr (Fin.ext ?_) (Fin.ext ?_) rfl)
  · have := n.isLt
    show (b.val * 1024 + n.val) / 1024 = b.val
    omega
  · have := n.isLt
    show (b.val * 1024 + n.val) % 1024 = n.val
    omega

/-! ## What the second function reads is the projection -/

/-- The block entry read for channel `e` is the projected entry of the head of `e`. -/
theorem blkE_eq (x : XT) (wq : WqT) (s : Fin 3) (b : Fin 8) (e n' : Fin 1024) (d' : Fin 64) :
    blkE (P0 (rows x) wq) s b e n' d' = qkv x wq s b (headOf e) n' d' := by
  unfold blkE qkv
  rw [P0_ix4]
  unfold P0c
  refine Finset.sum_congr rfl fun c _ => ?_
  rw [rows_ix2]
  have hs := s.isLt
  have hb := b.isLt
  have he := e.isLt
  have hn := n'.isLt
  have hd := d'.isLt
  refine congrArg₂ (· * ·) (congrArg x (ix3_congr (Fin.ext ?_) (Fin.ext ?_) rfl))
    (congrArg wq (ix2_congr (Fin.ext ?_) rfl))
  · show ((s.val * 8 + b.val) % 8 * 1024 + n'.val) / 1024 = b.val
    omega
  · show ((s.val * 8 + b.val) % 8 * 1024 + n'.val) % 1024 = n'.val
    omega
  · show ((s.val * 8 + b.val) / 8 * 8 + e.val / 128) * 128 + (e.val % 128 / 64 * 64 + d'.val)
      = s.val * 1024 + e.val / 64 * 64 + d'.val
    omega

theorem scoreP_eq (x : XT) (wq : WqT) (b : Fin 8) (e : Fin 1024) :
    scoreP (P0 (rows x) wq) b e = scoreK x wq b (headOf e) := by
  funext n n'
  simp only [scoreP, scoreK, blkE_eq]

theorem expP_eq (x : XT) (wq : WqT) (b : Fin 8) (e : Fin 1024) :
    expP (P0 (rows x) wq) b e = expK x wq b (headOf e) := by
  funext n n'
  simp only [expP, expK, scoreP_eq]

/-- The second function at channel `e` is the kernels' attention of the head and lane of `e`. -/
theorem P1c_eq (x : XT) (wq : WqT) (b : Fin 8) (n e : Fin 1024) :
    P1c (P0 (rows x) wq) b n e = attK x wq b (headOf e) n (laneOf e) := by
  simp only [P1c, attK, expP_eq, blkE_eq]

/-! ## The chain -/

theorem chain_eq_K (x : XT) (wq : WqT) (wp : WpT) (bp : BT) (b : Fin 8) (n : Fin 1024) (f : Fin 1024) :
    chain x wq wp bp (ix3 b n f) = K x wq wp bp b n f := by
  unfold chain K
  rw [unrows_ix3, P2_ix2]
  unfold P2c
  rw [oneRow_ix2]
  refine congrArg₂ (· + ·) (Finset.sum_congr rfl fun c _ => ?_) rfl
  rw [rows_at, P1_ix3, P1c_eq]

end Cert.Attn

end
-- ==== Proof.Algebra.lean ====
/-
  The two arrangements of attention agree when every entry of `x` and of `wq` is a real number.

  With real inputs every projected entry `qkv` is a real number (a finite sum of products of reals), and the scale is a
  real number. Hence
  * the two scores agree: `∑ d, (q d · s) · k d = (∑ d, q d · k d) · s` in ℝ;
  * a row's maximum, folded from `−∞ = ⊥` over the non-empty `Fin 1024`, is a real number, so every `score − rowmax`
    is real, its exponential is a positive real, and the row's sum of exponentials is a positive real `L`;
  * the two normalisations agree: `(∑ n', e n' · v n') / L = ∑ n', (e n' / L) · v n'` in ℝ, division by the non-zero
    real `L` being multiplication by `1 / L`.
  The first section states these facts over an arbitrary finite index set; the second transports them to `K` and `G`.
-/
import proofs.«138104_j6004364280063_2_alg».proof.Proof.Spec

noncomputable section

open scoped BigOperators
open Idealize.ShloMosaic Idealize.ShloMosaic.ValueIdx

namespace Cert.Attn

/-! ## Finite sums, maxima and quotients of reals inside the extended reals -/

/-- The coercion ℝ → EReal commutes with finite sums. -/
theorem coe_finset_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The maximum of a non-empty finite family of reals, folded from `⊥`, is a real number. -/
theorem fold_max_coe {ι : Type*} (s : Finset ι) (hs : s.Nonempty) (f : ι → ℝ) :
    ∃ r : ℝ, s.fold max (⊥ : EReal) (fun i => (f i : EReal)) = (r : EReal) := by
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- Scaling the left factor of every product, or the whole sum of products, is the same. -/
theorem score_arrange {ι : Type*} (t : Finset ι) (q k : ι → ℝ) (s : ℝ) :
    ∑ d ∈ t, ((q d : EReal) * (s : EReal)) * (k d : EReal)
      = (∑ d ∈ t, (q d : EReal) * (k d : EReal)) * (s : EReal) := by
  simp only [← EReal.coe_mul, ← coe_finset_sum]
  rw [EReal.coe_eq_coe_iff, Finset.sum_mul]
  exact Finset.sum_congr rfl fun d _ => by ring

/-- Dividing the sum of products by a non-zero real, or every left factor by it, is the same. -/
theorem norm_arrange {ι : Type*} (t : Finset ι) (e v : ι → ℝ) (L : ℝ) (hL : L ≠ 0) :
    Ideal.div (∑ n ∈ t, (e n : EReal) * (v n : EReal)) (L : EReal)
      = ∑ n ∈ t, Ideal.div (e n : EReal) (L : EReal) * (v n : EReal) := by
  simp only [Ideal.div_coe hL, ← EReal.coe_mul, ← coe_finset_sum]
  rw [EReal.coe_eq_coe_iff, Finset.sum_mul]
  exact Finset.sum_congr rfl fun n _ => by ring

/-! ## The two constants -/

/-- The scale is a real number (one eighth). -/
theorem scaleC_real : ∃ r : ℝ, scaleC = (r : EReal) :=
  ⟨1 / 8, by unfold scaleC; simp [Ideal.ofBits, Ideal.ieee, -EReal.coe_mul]; norm_num⟩

/-- The row maximum starts from `⊥`. -/
theorem negInf_eq : negInf = ⊥ := by simp [negInf, Ideal.ofBits, Ideal.ieee]

/-! ## Transport to the two arrangements -/

section
variable (x : XT) (wq : WqT)
  (hx : ∀ i, ∃ r : ℝ, x i = (r : EReal)) (hwq : ∀ i, ∃ r : ℝ, wq i = (r : EReal))
include hx hwq

/-- Every projected entry is a real number. -/
theorem qkv_real : ∃ q : Fin 3 → Fin 8 → Fin 16 → Fin 1024 → Fin 64 → ℝ,
    ∀ s b H n d, qkv x wq s b H n d = (q s b H n d : EReal) := by
  choose xr hxr using hx
  choose wr hwr using hwq
  refine ⟨fun s b H n d => ∑ c : Fin 1024, xr (ix3 b n c) * wr (ix2 (wrow s H d) c), fun s b H n d => ?_⟩
  simp only [qkv, hxr, hwr, ← EReal.coe_mul, ← coe_finset_sum]

/-- The two scores agree. -/
theorem scoreK_eq_scoreR : scoreK x wq = scoreR x wq := by
  obtain ⟨q, hq⟩ := qkv_real x wq hx hwq
  obtain ⟨s, hs⟩ := scaleC_real
  funext b H n n'
  simp only [scoreK, scoreR, hq, hs]
  exact score_arrange _ _ _ _

/-- Every score is a real number. -/
theorem scoreR_real : ∃ sc : Fin 8 → Fin 16 → Fin 1024 → Fin 1024 → ℝ,
    ∀ b H n n', scoreR x wq b H n n' = (sc b H n n' : EReal) := by
  obtain ⟨q, hq⟩ := qkv_real x wq hx hwq
  obtain ⟨s, hs⟩ := scaleC_real
  refine ⟨fun b H n n' => (∑ d : Fin 64, q 0 b H n d * q 1 b H n' d) * s, fun b H n n' => ?_⟩
  simp only [scoreR, hq, hs, ← EReal.coe_mul, ← coe_finset_sum]

/-- Every exponential of a score less its row's maximum is a positive real number. -/
theorem expR_real : ∃ e : Fin 8 → Fin 16 → Fin 1024 → Fin 1024 → ℝ,
    (∀ b H n n', 0 < e b H n n') ∧ ∀ b H n n', expR x wq b H n n' = (e b H n n' : EReal) := by
  obtain ⟨sc, hsc⟩ := scoreR_real x wq hx hwq
  have hM : ∀ b H n, ∃ M : ℝ, rowMax (scoreR x wq b H n) = (M : EReal) := by
    intro b H n
    have hrow : scoreR x wq b H n = fun n' => (sc b H n n' : EReal) := funext (hsc b H n)
    rw [hrow, rowMax, negInf_eq]
    exact fold_max_coe _ Finset.univ_nonempty _
  choose M hM using hM
  refine ⟨fun b H n n' => Real.exp (sc b H n n' - M b H n), fun _ _ _ _ => Real.exp_pos _, fun b H n n' => ?_⟩
  rw [expR, hM, hsc, ← EReal.coe_sub, Ideal.exp_coe]

/-- The two attention outputs agree. -/
theorem attK_eq_attR : attK x wq = attR x wq := by
  have hS := scoreK_eq_scoreR x wq hx hwq
  have hE : expK x wq = expR x wq := by
    funext b H n n'
    simp only [expK, expR, hS]
  obtain ⟨q, hq⟩ := qkv_real x wq hx hwq
  obtain ⟨e, hpos, he⟩ := expR_real x wq hx hwq
  funext b H n d
  have hL : (∑ k : Fin 1024, (e b H n k : EReal)) = ((∑ k : Fin 1024, e b H n k : ℝ) : EReal) :=
    (coe_finset_sum _ _).symm
  have hL0 : (∑ k : Fin 1024, e b H n k) ≠ 0 :=
    ne_of_gt (Finset.sum_pos (fun k _ => hpos b H n k) Finset.univ_nonempty)
  simp only [attK, attR, hE, he, hq, hL]
  exact norm_arrange Finset.univ (fun n' => e b H n n') (fun n' => q 2 b H n' d) _ hL0

end

/-- On real inputs the kernels' arrangement and the reference's arrangement give the same result. -/
theorem K_eq_G (x : XT) (wq : WqT) (wp : WpT) (bp : BT)
    (hx : ∀ i, ∃ r : ℝ, x i = (r : EReal)) (hwq : ∀ i, ∃ r : ℝ, wq i = (r : EReal)) :
    K x wq wp bp = G x wq wp bp := by
  funext b n f
  simp only [K, G, attK_eq_attR x wq hx hwq]

end Cert.Attn

end
-- ==== Proof.RefSideA.lean ====
/-
  The reference's projected query / key / value entries.

  The first product gives, at (b, n, r), the sum over c of x[b, n, c] · wq[r, c]. The reshape to [8, 1024, 3, 16, 64] splits
  r as s·1024 + H·64 + d, the transpose moves (b, n, s, H, d) to (s, b, H, n, d), and slice s followed by the reshape that
  drops the unit axis leaves the array (b, H, n, d) ↦ ∑ c, x[b, n, c] · wq[s·1024 + H·64 + d, c], which is the
  specification's qkv s. Each layout operation reads its operand at an index computed by row-major arithmetic; the
  lemmas below evaluate that arithmetic on indices given by their coordinates.
-/
import proofs.«138104_j6004364280063_2_alg».proof.Defs
import proofs.«138104_j6004364280063_2_alg».proof.Proof.Gen.ReferenceIdeal.Read
import proofs.«138104_j6004364280063_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.StableHlo
open Cert.ReferenceIdeal Cert.ReferenceIdeal.Gen Cert.ReferenceIdeal.Read

namespace Cert.Attn.RefSide

abbrev X0 : Type := (⟨S8x1024x1024, .f32⟩ : BufTy).Contents (Elt Ideal)
abbrev X1 : Type := (⟨S3072x1024, .f32⟩ : BufTy).Contents (Elt Ideal)

/-! ## The layout operations' index maps on coordinates -/

/-- Dropping the unit axis: (b, H, n, d) is read at (0, b, H, n, d). -/
theorem idx_v4_ix (b : Fin 8) (H : Fin 16) (n : Fin 1024) (d : Fin 64) :
    idx_main_v4 (ix4 b H n d) = ix5 (0 : Fin 1) b H n d := by
  funext a; apply Fin.ext
  have hb := b.isLt; have hH := H.isLt; have hn := n.isLt; have hd := d.isLt
  match a with
  | ⟨0, _⟩ => rfl
  | ⟨1, _⟩ => show (((b.val * 16 + H.val) * 1024 + n.val) * 64 + d.val) / 1048576 % 8 = b.val; omega
  | ⟨2, _⟩ => show (((b.val * 16 + H.val) * 1024 + n.val) * 64 + d.val) / 65536 % 16 = H.val; omega
  | ⟨3, _⟩ => show (((b.val * 16 + H.val) * 1024 + n.val) * 64 + d.val) / 64 % 1024 = n.val; omega
  | ⟨4, _⟩ => show (((b.val * 16 + H.val) * 1024 + n.val) * 64 + d.val) % 64 = d.val; omega

theorem idx_v6_ix (b : Fin 8) (H : Fin 16) (n : Fin 1024) (d : Fin 64) :
    idx_main_v6 (ix4 b H n d) = ix5 (0 : Fin 1) b H n d := by
  funext a; apply Fin.ext
  have hb := b.isLt; have hH := H.isLt; have hn := n.isLt; have hd := d.isLt
  match a with
  | ⟨0, _⟩ => rfl
  | ⟨1, _⟩ => show (((b.val * 16 + H.val) * 1024 + n.val) * 64 + d.val) / 1048576 % 8 = b.val; omega
  | ⟨2, _⟩ => show (((b.val * 16 + H.val) * 1024 + n.val) * 64 + d.val) / 65536 % 16 = H.val; omega
  | ⟨3, _⟩ => show (((b.val * 16 + H.val) * 1024 + n.val) * 64 + d.val) / 64 % 1024 = n.val; omega
  | ⟨4, _⟩ => show (((b.val * 16 + H.val) * 1024 + n.val) * 64 + d.val) % 64 = d.val; omega

theorem idx_v8_ix (b : Fin 8) (H : Fin 16) (n : Fin 1024) (d : Fin 64) :
    idx_main_v8 (ix4 b H n d) = ix5 (0 : Fin 1) b H n d := by
  funext a; apply Fin.ext
  have hb := b.isLt; have hH := H.isLt; have hn := n.isLt; have hd := d.isLt
  match a with
  | ⟨0, _⟩ => rfl
  | ⟨1, _⟩ => show (((b.val * 16 + H.val) * 1024 + n.val) * 64 + d.val) / 1048576 % 8 = b.val; omega
  | ⟨2, _⟩ => show (((b.val * 16 + H.val) * 1024 + n.val) * 64 + d.val) / 65536 % 16 = H.val; omega
  | ⟨3, _⟩ => show (((b.val * 16 + H.val) * 1024 + n.val) * 64 + d.val) / 64 % 1024 = n.val; omega
  | ⟨4, _⟩ => show (((b.val * 16 + H.val) * 1024 + n.val) * 64 + d.val) % 64 = d.val; omega

/-- Slice s of the leading axis: (0, b, H, n, d) is read at (s, b, H, n, d). -/
theorem idx_v3_ix (b : Fin 8) (H : Fin 16) (n : Fin 1024) (d : Fin 64) :
    idx_main_v3 (ix5 (0 : Fin 1) b H n d) = ix5 (0 : Fin 3) b H n d := by
  funext a; apply Fin.ext
  match a with
  | ⟨0, _⟩ => rfl
  | ⟨1, _⟩ => rfl
  | ⟨2, _⟩ => rfl
  | ⟨3, _⟩ => rfl
  | ⟨4, _⟩ => rfl

theorem idx_v5_ix (b : Fin 8) (H : Fin 16) (n : Fin 1024) (d : Fin 64) :
    idx_main_v5 (ix5 (0 : Fin 1) b H n d) = ix5 (1 : Fin 3) b H n d := by
  funext a; apply Fin.ext
  match a with
  | ⟨0, _⟩ => rfl
  | ⟨1, _⟩ => rfl
  | ⟨2, _⟩ => rfl
  | ⟨3, _⟩ => rfl
  | ⟨4, _⟩ => rfl

theorem idx_v7_ix (b : Fin 8) (H : Fin 16) (n : Fin 1024) (d : Fin 64) :
    idx_main_v7 (ix5 (0 : Fin 1) b H n d) = ix5 (2 : Fin 3) b H n d := by
  funext a; apply Fin.ext
  match a with
  | ⟨0, _⟩ => rfl
  | ⟨1, _⟩ => rfl
  | ⟨2, _⟩ => rfl
  | ⟨3, _⟩ => rfl
  | ⟨4, _⟩ => rfl

/-- The transpose: (s, b, H, n, d) is read at (b, n, s, H, d). -/
theorem idx_v2_ix (s : Fin 3) (b : Fin 8) (H : Fin 16) (n : Fin 1024) (d : Fin 64) :
    idx_main_v2 (ix5 s b H n d) = ix5 b n s H d := by
  funext a; apply Fin.ext
  match a with
  | ⟨0, _⟩ => rfl
  | ⟨1, _⟩ => rfl
  | ⟨2, _⟩ => rfl
  | ⟨3, _⟩ => rfl
  | ⟨4, _⟩ => rfl

/-- The split of the 3072 output channels: (b, n, s, H, d) is read at (b, n, s·1024 + H·64 + d). -/
theorem idx_v1_ix (b : Fin 8) (n : Fin 1024) (s : Fin 3) (H : Fin 16) (d : Fin 64) :
    idx_main_v1 (ix5 b n s H d) = ix3 b n (wrow s H d) := by
  funext a; apply Fin.ext
  have hb := b.isLt; have hn := n.isLt; have hs := s.isLt; have hH := H.isLt; have hd := d.isLt
  match a with
  | ⟨0, _⟩ => show ((((b.val * 1024 + n.val) * 3 + s.val) * 16 + H.val) * 64 + d.val) / 3145728 = b.val; omega
  | ⟨1, _⟩ => show ((((b.val * 1024 + n.val) * 3 + s.val) * 16 + H.val) * 64 + d.val) / 3072 % 1024 = n.val; omega
  | ⟨2, _⟩ => show ((((b.val * 1024 + n.val) * 3 + s.val) * 16 + H.val) * 64 + d.val) % 3072 = s.val * 1024 + H.val * 64 + d.val; omega

/-- The first product's operands at (b, n, r) and summation index c: x at (b, n, c), wq at (r, c). -/
theorem lidx_v0_ix (b : Fin 8) (n : Fin 1024) (r : Fin 3072) (c : Fin 1024) :
    lidx_main_v0 (ix3 b n r) c = ix3 b n c := by
  funext a; apply Fin.ext
  match a with
  | ⟨0, _⟩ => rfl
  | ⟨1, _⟩ => rfl
  | ⟨2, _⟩ => rfl

theorem ridx_v0_ix (b : Fin 8) (n : Fin 1024) (r : Fin 3072) (c : Fin 1024) :
    ridx_main_v0 (ix3 b n r) c = ix2 r c := by
  funext a; apply Fin.ext
  match a with
  | ⟨0, _⟩ => rfl
  | ⟨1, _⟩ => rfl

/-! ## The three projections -/

/-- The transposed array at (s, b, H, n, d) is the specification's qkv s. -/
theorem v2_eq (x0 : X0) (x1 : X1) (s : Fin 3) (b : Fin 8) (H : Fin 16) (n : Fin 1024) (d : Fin 64) :
    val_main_v2 (F := Ideal) x0 x1 (ix5 s b H n d) = qkv x0 x1 s b H n d := by
  rw [val_main_v2_apply, idx_v2_ix, val_main_v1_apply, idx_v1_ix, val_main_v0_apply]
  unfold qkv
  refine Finset.sum_congr rfl fun c _ => ?_
  rw [lidx_v0_ix, ridx_v0_ix]

theorem v4_eq (x0 : X0) (x1 : X1) (b : Fin 8) (H : Fin 16) (n : Fin 1024) (d : Fin 64) :
    val_main_v4 (F := Ideal) x0 x1 (ix4 b H n d) = qkv x0 x1 0 b H n d := by
  rw [val_main_v4_apply, idx_v4_ix, val_main_v3_apply, idx_v3_ix, v2_eq]

theorem v6_eq (x0 : X0) (x1 : X1) (b : Fin 8) (H : Fin 16) (n : Fin 1024) (d : Fin 64) :
    val_main_v6 (F := Ideal) x0 x1 (ix4 b H n d) = qkv x0 x1 1 b H n d := by
  rw [val_main_v6_apply, idx_v6_ix, val_main_v5_apply, idx_v5_ix, v2_eq]

theorem v8_eq (x0 : X0) (x1 : X1) (b : Fin 8) (H : Fin 16) (n : Fin 1024) (d : Fin 64) :
    val_main_v8 (F := Ideal) x0 x1 (ix4 b H n d) = qkv x0 x1 2 b H n d := by
  rw [val_main_v8_apply, idx_v8_ix, val_main_v7_apply, idx_v7_ix, v2_eq]

end Cert.Attn.RefSide

end
-- ==== Proof.RefSideB.lean ====
/-
  The reference's scores and their row maxima.

  The score product contracts the query and key entries over the 64 channels of a head, and the result is multiplied by
  the scale: at (b, H, n, n') it is (∑ d, q[n, d] · k[n', d]) · scale, the specification's scoreR. The row maximum is a
  fold of max over the last axis starting from −∞, followed by a maximum with −∞, which changes nothing since −∞ is the
  least extended real.
-/
import proofs.«138104_j6004364280063_2_alg».proof.Defs
import proofs.«138104_j6004364280063_2_alg».proof.Proof.Gen.ReferenceIdeal.Read
import proofs.«138104_j6004364280063_2_alg».proof.Proof.Spec
import proofs.«138104_j6004364280063_2_alg».proof.Proof.RefSideA
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.StableHlo
open Cert.ReferenceIdeal Cert.ReferenceIdeal.Gen Cert.ReferenceIdeal.Read

namespace Cert.Attn.RefSide

/-! ## The score -/

/-- The score product's operands at (b, H, n, n') and summation index d: the query at (b, H, n, d), the key at (b, H, n', d). -/
theorem lidx_v9_ix (b : Fin 8) (H : Fin 16) (n n' : Fin 1024) (d : Fin 64) :
    lidx_main_v9 (ix4 b H n n') d = ix4 b H n d := by
  funext a; apply Fin.ext
  match a with
  | ⟨0, _⟩ => rfl
  | ⟨1, _⟩ => rfl
  | ⟨2, _⟩ => rfl
  | ⟨3, _⟩ => rfl

theorem ridx_v9_ix (b : Fin 8) (H : Fin 16) (n n' : Fin 1024) (d : Fin 64) :
    ridx_main_v9 (ix4 b H n n') d = ix4 b H n' d := by
  funext a; apply Fin.ext
  match a with
  | ⟨0, _⟩ => rfl
  | ⟨1, _⟩ => rfl
  | ⟨2, _⟩ => rfl
  | ⟨3, _⟩ => rfl

theorem v9_eq (x0 : X0) (x1 : X1) (b : Fin 8) (H : Fin 16) (n n' : Fin 1024) :
    val_main_v9 (F := Ideal) x0 x1 (ix4 b H n n') = ∑ d : Fin 64, qkv x0 x1 0 b H n d * qkv x0 x1 1 b H n' d := by
  rw [val_main_v9_apply]
  refine Finset.sum_congr rfl fun d _ => ?_
  rw [lidx_v9_ix, ridx_v9_ix, v4_eq, v6_eq]

/-- The scaled score at (b, H, n, n') is the specification's scoreR. -/
theorem v11_eq (x0 : X0) (x1 : X1) (b : Fin 8) (H : Fin 16) (n n' : Fin 1024) :
    val_main_v11 (F := Ideal) x0 x1 (ix4 b H n n') = scoreR x0 x1 b H n n' := by
  rw [val_main_v11_apply, v9_eq, val_main_v10_apply, val_main_cst_apply]
  rfl

/-! ## The row maximum -/

/-- The reduced index (b, H, n) with coordinate k put back on the last axis is (b, H, n, k). -/
theorem lift_v12_ix (h : S8x16x1024x1024.Reduces [3] S8x16x1024) (b : Fin 8) (H : Fin 16) (n : Fin 1024)
    (k : Fin (S8x16x1024x1024.size 3)) : h.lift (ix3 b H n) k = ix4 b H n (⟨k.val, k.isLt⟩ : Fin 1024) := by
  funext c; apply Fin.ext
  fin_cases c <;> rfl

/-- −∞ is neutral for the maximum. -/
theorem max_negInf (y : EReal) : max negInf y = y := by
  unfold negInf; simp [Ideal.ofBits, Ideal.ieee]

/-- The max-reduce over the last axis at (b, H, n) is the fold of max from −∞ over the row of scores. -/
theorem v12_eq (x0 : X0) (x1 : X1) (b : Fin 8) (H : Fin 16) (n : Fin 1024) :
    val_main_v12 (F := Ideal) x0 x1 (ix3 b H n) = rowMax (scoreR x0 x1 b H n) := by
  unfold val_main_v12
  have h : S8x16x1024x1024.Reduces [3] S8x16x1024 := by decide
  rw [Host.reduce_eq_fold_single FloatOps.maximumf _ _ _ h]
  have hf : (val_main_v11 (F := Ideal) x0 x1 ∘ h.lift (ix3 b H n)) = fun k : Fin 1024 => scoreR x0 x1 b H n k :=
    funext fun k => by
      show val_main_v11 (F := Ideal) x0 x1 (h.lift (ix3 b H n) k) = _
      rw [lift_v12_ix, v11_eq]
      rfl
  rw [hf]
  rfl

/-- The row maximum the softmax subtracts, at (b, H, n). -/
theorem v14_eq (x0 : X0) (x1 : X1) (b : Fin 8) (H : Fin 16) (n : Fin 1024) :
    val_main_v14 (F := Ideal) x0 x1 (ix3 b H n) = rowMax (scoreR x0 x1 b H n) := by
  rw [val_main_v14_apply, val_main_v13_apply, val_main_cst_1_apply, v12_eq]
  exact max_negInf _

end Cert.Attn.RefSide

end
-- ==== Proof.RefSideC.lean ====
/-
  The reference's softmax weights and the head's output.

  The row maximum is broadcast back along the key axis through a unit axis, subtracted from the scores and exponentiated:
  at (b, H, n, n') this is exp (score − rowmax), the specification's expR. The row sum is a float sum from 0 over the key
  axis, broadcast back the same way, and the weights are the quotient. The product with the values contracts the key
  axis: at (b, H, n, d) it is ∑ n', weight[n, n'] · v[n', d], the specification's attR.
-/
import proofs.«138104_j6004364280063_2_alg».proof.Defs
import proofs.«138104_j6004364280063_2_alg».proof.Proof.Gen.ReferenceIdeal.Read
import proofs.«138104_j6004364280063_2_alg».proof.Proof.Spec
import proofs.«138104_j6004364280063_2_alg».proof.Proof.RefSideB
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.StableHlo
open Cert.ReferenceIdeal Cert.ReferenceIdeal.Gen Cert.ReferenceIdeal.Read

namespace Cert.Attn.RefSide

/-! ## Broadcasting a row statistic back along the key axis -/

/-- [8, 16, 1024, 1] → [8, 16, 1024, 1024]: (b, H, n, n') is read at (b, H, n, 0). -/
theorem idx_v16_ix (b : Fin 8) (H : Fin 16) (n n' : Fin 1024) :
    idx_main_v16 (ix4 b H n n') = ix4 b H n (0 : Fin 1) := by
  funext a; apply Fin.ext
  match a with
  | ⟨0, _⟩ => rfl
  | ⟨1, _⟩ => rfl
  | ⟨2, _⟩ => rfl
  | ⟨3, _⟩ => rfl

/-- [8, 16, 1024] → [8, 16, 1024, 1]: (b, H, n, z) is read at (b, H, n). -/
theorem idx_v15_ix (b : Fin 8) (H : Fin 16) (n : Fin 1024) (z : Fin 1) :
    idx_main_v15 (ix4 b H n z) = ix3 b H n := by
  funext a; apply Fin.ext
  match a with
  | ⟨0, _⟩ => rfl
  | ⟨1, _⟩ => rfl
  | ⟨2, _⟩ => rfl

theorem idx_v21_ix (b : Fin 8) (H : Fin 16) (n n' : Fin 1024) :
    idx_main_v21 (ix4 b H n n') = ix4 b H n (0 : Fin 1) := by
  funext a; apply Fin.ext
  match a with
  | ⟨0, _⟩ => rfl
  | ⟨1, _⟩ => rfl
  | ⟨2, _⟩ => rfl
  | ⟨3, _⟩ => rfl

theorem idx_v20_ix (b : Fin 8) (H : Fin 16) (n : Fin 1024) (z : Fin 1) :
    idx_main_v20 (ix4 b H n z) = ix3 b H n := by
  funext a; apply Fin.ext
  match a with
  | ⟨0, _⟩ => rfl
  | ⟨1, _⟩ => rfl
  | ⟨2, _⟩ => rfl

/-! ## The exponentials and their row sum -/

theorem v16_eq (x0 : X0) (x1 : X1) (b : Fin 8) (H : Fin 16) (n n' : Fin 1024) :
    val_main_v16 (F := Ideal) x0 x1 (ix4 b H n n') = rowMax (scoreR x0 x1 b H n) := by
  rw [val_main_v16_apply, idx_v16_ix, val_main_v15_apply, idx_v15_ix, v14_eq]

/-- exp (score − rowmax) at (b, H, n, n') is the specification's expR. -/
theorem v18_eq (x0 : X0) (x1 : X1) (b : Fin 8) (H : Fin 16) (n n' : Fin 1024) :
    val_main_v18 (F := Ideal) x0 x1 (ix4 b H n n') = expR x0 x1 b H n n' := by
  rw [val_main_v18_apply, val_main_v17_apply, v11_eq, v16_eq]
  rfl

/-- The float sum's operand at (b, H, n) and summation index k is read at (b, H, n, k). -/
theorem idx_v19_ix (b : Fin 8) (H : Fin 16) (n : Fin 1024) (k : Fin 1024) :
    idx_main_v19 (ix3 b H n) k = ix4 b H n k := by
  funext a; apply Fin.ext
  match a with
  | ⟨0, _⟩ => rfl
  | ⟨1, _⟩ => rfl
  | ⟨2, _⟩ => rfl
  | ⟨3, _⟩ => rfl

/-- The row sum of the exponentials: the sum starts from the float zero, which is 0. -/
theorem v19_eq (x0 : X0) (x1 : X1) (b : Fin 8) (H : Fin 16) (n : Fin 1024) :
    val_main_v19 (F := Ideal) x0 x1 (ix3 b H n) = ∑ k : Fin 1024, expR x0 x1 b H n k := by
  rw [val_main_v19_apply, val_main_cst_2_apply, Ideal.ofBits_def, Ideal.ofBits_zero_f32, zero_add]
  refine Finset.sum_congr rfl fun k _ => ?_
  rw [idx_v19_ix, v18_eq]

theorem v21_eq (x0 : X0) (x1 : X1) (b : Fin 8) (H : Fin 16) (n n' : Fin 1024) :
    val_main_v21 (F := Ideal) x0 x1 (ix4 b H n n') = ∑ k : Fin 1024, expR x0 x1 b H n k := by
  rw [val_main_v21_apply, idx_v21_ix, val_main_v20_apply, idx_v20_ix, v19_eq]

/-! ## The weights and the head's output -/

/-- The softmax weight at (b, H, n, n'). -/
theorem v22_eq (x0 : X0) (x1 : X1) (b : Fin 8) (H : Fin 16) (n n' : Fin 1024) :
    val_main_v22 (F := Ideal) x0 x1 (ix4 b H n n')
      = Ideal.div (expR x0 x1 b H n n') (∑ k : Fin 1024, expR x0 x1 b H n k) := by
  rw [val_main_v22_apply, v18_eq, v21_eq]
  rfl

/-- The product with the values at (b, H, n, d) and summation index n': the weight at (b, H, n, n'), the value at (b, H, n', d). -/
theorem lidx_v23_ix (b : Fin 8) (H : Fin 16) (n : Fin 1024) (d : Fin 64) (k : Fin 1024) :
    lidx_main_v23 (ix4 b H n d) k = ix4 b H n k := by
  funext a; apply Fin.ext
  match a with
  | ⟨0, _⟩ => rfl
  | ⟨1, _⟩ => rfl
  | ⟨2, _⟩ => rfl
  | ⟨3, _⟩ => rfl

theorem ridx_v23_ix (b : Fin 8) (H : Fin 16) (n : Fin 1024) (d : Fin 64) (k : Fin 1024) :
    ridx_main_v23 (ix4 b H n d) k = ix4 b H k d := by
  funext a; apply Fin.ext
  match a with
  | ⟨0, _⟩ => rfl
  | ⟨1, _⟩ => rfl
  | ⟨2, _⟩ => rfl
  | ⟨3, _⟩ => rfl

/-- The head's output at (b, H, n, d) is the specification's attR. -/
theorem v23_eq (x0 : X0) (x1 : X1) (b : Fin 8) (H : Fin 16) (n : Fin 1024) (d : Fin 64) :
    val_main_v23 (F := Ideal) x0 x1 (ix4 b H n d) = attR x0 x1 b H n d := by
  rw [val_main_v23_apply]
  unfold attR
  refine Finset.sum_congr rfl fun k _ => ?_
  rw [lidx_v23_ix, ridx_v23_ix, v22_eq, v8_eq]

end Cert.Attn.RefSide

end
-- ==== Proof.RefSide.lean ====
/-
  The reference is the specification's G.

  The head outputs (b, H, n, d) are transposed to (b, n, H, d) and the last two axes merged into the 1024 model
  channels: channel c holds head c / 64, lane c % 64. The output projection contracts the channels against wp, and the
  bias, broadcast from [1024] through [1, 1, 1024], is added: at (b, n, f) the result is
  (∑ c, out[b, n, c] · wp[f, c]) + bp[f], the specification's G.
-/
import proofs.«138104_j6004364280063_2_alg».proof.Defs
import proofs.«138104_j6004364280063_2_alg».proof.Proof.Gen.ReferenceIdeal.Read
import proofs.«138104_j6004364280063_2_alg».proof.Proof.Spec
import proofs.«138104_j6004364280063_2_alg».proof.Proof.RefSideC
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.StableHlo
open Cert.ReferenceIdeal Cert.ReferenceIdeal.Gen Cert.ReferenceIdeal.Read

namespace Cert.Attn.RefSide

abbrev X2 : Type := (⟨S1024x1024, .f32⟩ : BufTy).Contents (Elt Ideal)
abbrev X3 : Type := (⟨S1024, .f32⟩ : BufTy).Contents (Elt Ideal)

/-! ## From heads back to channels -/

/-- Merging (H, d) into a channel: (b, n, c) is read at (b, n, c / 64, c % 64). -/
theorem idx_v25_ix (b : Fin 8) (n c : Fin 1024) :
    idx_main_v25 (ix3 b n c) = ix4 b n (headOf c) (laneOf c) := by
  funext a; apply Fin.ext
  have hb := b.isLt; have hn := n.isLt; have hc := c.isLt
  match a with
  | ⟨0, _⟩ => show ((b.val * 1024 + n.val) * 1024 + c.val) / 1048576 = b.val; omega
  | ⟨1, _⟩ => show ((b.val * 1024 + n.val) * 1024 + c.val) / 1024 % 1024 = n.val; omega
  | ⟨2, _⟩ => show ((b.val * 1024 + n.val) * 1024 + c.val) / 64 % 16 = c.val / 64; omega
  | ⟨3, _⟩ => show ((b.val * 1024 + n.val) * 1024 + c.val) % 64 = c.val % 64; omega

/-- The transpose: (b, n, H, d) is read at (b, H, n, d). -/
theorem idx_v24_ix (b : Fin 8) (n : Fin 1024) (H : Fin 16) (d : Fin 64) :
    idx_main_v24 (ix4 b n H d) = ix4 b H n d := by
  funext a; apply Fin.ext
  match a with
  | ⟨0, _⟩ => rfl
  | ⟨1, _⟩ => rfl
  | ⟨2, _⟩ => rfl
  | ⟨3, _⟩ => rfl

/-- The attention output at (b, n, c) is the head output of head c / 64 at lane c % 64. -/
theorem v25_eq (x0 : X0) (x1 : X1) (b : Fin 8) (n c : Fin 1024) :
    val_main_v25 (F := Ideal) x0 x1 (ix3 b n c) = attR x0 x1 b (headOf c) n (laneOf c) := by
  rw [val_main_v25_apply, idx_v25_ix, val_main_v24_apply, idx_v24_ix, v23_eq]

/-! ## The output projection and the bias -/

theorem lidx_v26_ix (b : Fin 8) (n f c : Fin 1024) : lidx_main_v26 (ix3 b n f) c = ix3 b n c := by
  funext a; apply Fin.ext
  match a with
  | ⟨0, _⟩ => rfl
  | ⟨1, _⟩ => rfl
  | ⟨2, _⟩ => rfl

theorem ridx_v26_ix (b : Fin 8) (n f c : Fin 1024) : ridx_main_v26 (ix3 b n f) c = ix2 f c := by
  funext a; apply Fin.ext
  match a with
  | ⟨0, _⟩ => rfl
  | ⟨1, _⟩ => rfl

theorem v26_eq (x0 : X0) (x1 : X1) (x2 : X2) (b : Fin 8) (n f : Fin 1024) :
    val_main_v26 (F := Ideal) x0 x1 x2 (ix3 b n f)
      = ∑ c : Fin 1024, attR x0 x1 b (headOf c) n (laneOf c) * x2 (ix2 f c) := by
  rw [val_main_v26_apply]
  refine Finset.sum_congr rfl fun c _ => ?_
  rw [lidx_v26_ix, ridx_v26_ix, v25_eq]

/-- [1, 1, 1024] → [8, 1024, 1024]: (b, n, f) is read at (0, 0, f). -/
theorem idx_v28_ix (b : Fin 8) (n f : Fin 1024) :
    idx_main_v28 (ix3 b n f) = ix3 (0 : Fin 1) (0 : Fin 1) f := by
  funext a; apply Fin.ext
  match a with
  | ⟨0, _⟩ => rfl
  | ⟨1, _⟩ => rfl
  | ⟨2, _⟩ => rfl

/-- [1024] → [1, 1, 1024]: (z, z', f) is read at f. -/
theorem idx_v27_ix (z z' : Fin 1) (f : Fin 1024) : idx_main_v27 (ix3 z z' f) = ix1 f := by
  funext a; apply Fin.ext
  match a with
  | ⟨0, _⟩ => rfl

theorem v28_eq (x3 : X3) (b : Fin 8) (n f : Fin 1024) :
    val_main_v28 (F := Ideal) x3 (ix3 b n f) = x3 (ix1 f) := by
  rw [val_main_v28_apply, idx_v28_ix, val_main_v27_apply, idx_v27_ix]

/-- The reference's result at (b, n, f), by coordinates. -/
theorem ref_is_G_ix (x0 : X0) (x1 : X1) (x2 : X2) (x3 : X3) (b : Fin 8) (n f : Fin 1024) :
    val_main_v29 (F := Ideal) x0 x1 x2 x3 (ix3 b n f) = G x0 x1 x2 x3 b n f := by
  rw [val_main_v29_apply, v26_eq, v28_eq]
  rfl

/-- The reference's result, at every index, is the specification's G at the index's coordinates. -/
theorem ref_is_G (x0 : (⟨Cert.ReferenceIdeal.S8x1024x1024, .f32⟩ : BufTy).Contents (Elt Ideal)) (x1 : (⟨Cert.ReferenceIdeal.S3072x1024, .f32⟩ : BufTy).Contents (Elt Ideal))
    (x2 : (⟨Cert.ReferenceIdeal.S1024x1024, .f32⟩ : BufTy).Contents (Elt Ideal)) (x3 : (⟨Cert.ReferenceIdeal.S1024, .f32⟩ : BufTy).Contents (Elt Ideal)) (i : Cert.ReferenceIdeal.S8x1024x1024.Idx) :
    Cert.ReferenceIdeal.Read.val_main_v29 (F := Ideal) x0 x1 x2 x3 i = Cert.Attn.G x0 x1 x2 x3 (i 0) (i 1) (i 2) :=
  (congrArg (Cert.ReferenceIdeal.Read.val_main_v29 (F := Ideal) x0 x1 x2 x3) (eq_ix3 i)).trans
    (ref_is_G_ix x0 x1 x2 x3 (i 0) (i 1) (i 2))

end Cert.Attn.RefSide

end
-- ==== Proof.Finite.lean ====
/-
  Finiteness of the inputs, read off the precondition.

  The precondition computes, for each float input array, whether every entry has |entry| < +∞ — a comparison of the
  entry's absolute value max x (−x) against the float pattern of +∞, reduced over the whole array by "and" from 1 — and
  takes the conjunction over the four arrays; it states the result is 1. So every comparison came out 1, and an
  extended real whose absolute value is below +∞ is neither +∞ nor −∞: it is a real.
-/
import proofs.«138104_j6004364280063_2_alg».proof.Defs
import Idealize.ShloMosaic.Lib.ReduceAll
import Idealize.ShloMosaic.Lib.ValueIdx
import Idealize.ShloMosaic.PureOps.Ideal.Laws

noncomputable section

open Idealize.ShloMosaic Idealize.ShloMosaic.ValueIdx Idealize.ShloMosaic.TcCoe Idealize.SL.Sem

namespace Cert.Attn.Finite

/-- The scalar shape has one index. -/
instance : Subsingleton Cert.Pre_finite_inputs.S_.Idx := ⟨fun _ _ => funext fun d => d.elim0⟩

/-- An extended real whose absolute value compares below the pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- One array's "all entries have absolute value below +∞", reduced to one bit that is 1: every entry is a real. -/
theorem real_of_all {s : Shape} {axes : List (Fin s.rank)} (x : FVec Ideal s .f32)
    (bc : Cert.Pre_finite_inputs.S_.BroadcastsInDim s (![] : Fin 0 → Fin s.rank))
    (h' : s.ReducesTo axes Cert.Pre_finite_inputs.S_) (hu : 0 < Cert.Pre_finite_inputs.S_.numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) h' hu ix0 = 1#1)
    (i : s.Idx) : ∃ r : ℝ, x i = (r : EReal) :=
  real_of_abs_lt (x i) (Host.reduce_andi_all _ _ h' hu ix0 e i)

/-- The precondition's function at the four arrays is 1: the first two arrays hold reals only. -/
theorem finite_of_fn [Cert.Pre_finite_inputs.Facts]
    (x0 : FVec Ideal Cert.Pre_finite_inputs.S8x1024x1024 .f32) (x1 : FVec Ideal Cert.Pre_finite_inputs.S3072x1024 .f32)
    (x2 : FVec Ideal Cert.Pre_finite_inputs.S1024x1024 .f32) (x3 : FVec Ideal Cert.Pre_finite_inputs.S1024 .f32)
    (e : Cert.Pre_finite_inputs.fn (F := Ideal) x0 x1 x2 x3 ix0 = 1#1) :
    (∀ i, ∃ r : ℝ, x0 i = (r : EReal)) ∧ (∀ i, ∃ r : ℝ, x1 i = (r : EReal)) := by
  dsimp only [Cert.Pre_finite_inputs.fn, Cert.Pre_finite_inputs.fn_part1] at e
  obtain ⟨e012, _⟩ := IntOp.andi_eq_one.1 e
  obtain ⟨e01, _⟩ := IntOp.andi_eq_one.1 e012
  obtain ⟨e0, e1⟩ := IntOp.andi_eq_one.1 e01
  exact ⟨fun i => real_of_all x0 _ _ _ e0 i, fun i => real_of_all x1 _ _ _ e1 i⟩

/-- Under the precondition, on every device, the input x and the stacked projection wq hold reals only. -/
theorem finite_of_pre [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  finite_of_fn _ _ _ _ (congrFun (h c) ix0)

end Cert.Attn.Finite

end
-- ==== Proof.lean ====
/-
  The certificate of the attention program: three pallas_calls — the stacked query / key / value projection, the
  attention of each batch entry and head pair, the output projection with its bias — against the reference's
  einsum / softmax / einsum chain, over the extended reals.

  * The frames. @main is six items: a host stretch (two format changes and a reshape), region 0, region 1, a host
    stretch (two reshapes), region 2, a host stretch (a reshape). Each region's body is run once at a symbolic grid
    point from the blocks the pipeline staged; the three attention inputs are blocks of ONE array, which the region
    holds as three shares of it. The run ends with every unscoped buffer at the contents `W6` names, and no item
    writes an argument. This is proved once for any float instance and cited at the word-level program and at the
    idealized one. The reference's frame is its run with the result dropped.
  * No operation was rewritten by the idealization, so `preserves` is trivial.
  * The values. Each region's output array is one function of its input arrays (`P0`, `P1`, `P2`: the blocks are
    restrictions of it and cover the output), so the result is `chain` of the four inputs, which is `K`: the kernels'
    arrangement of attention — the scale applied to the query before the score product, the softmax normalisation
    applied after the product with the values. The reference's run, read one operation at a time, is `G`: the scale
    after the score product, the normalisation before the value product. For FINITE inputs the two agree: every
    projected entry is a real number, so `∑ d, (q·s)·k = (∑ d, q·k)·s`, the row maximum is attained, the shifted
    exponentials are positive reals with a positive real sum `L`, and `∑ n', (e/L)·v = (∑ n', e·v)/L`. The
    precondition supplies exactly that finiteness.
-/
import proofs.«138104_j6004364280063_2_alg».proof.Defs
import proofs.«138104_j6004364280063_2_alg».proof.Proof.Gen.Kernel
import proofs.«138104_j6004364280063_2_alg».proof.Proof.Gen.KernelIdeal
import proofs.«138104_j6004364280063_2_alg».proof.Proof.Gen.ReferenceIdeal
import proofs.«138104_j6004364280063_2_alg».proof.Proof.Gen.Pre_finite_inputs
import proofs.«138104_j6004364280063_2_alg».proof.Proof.Gen.ReferenceIdeal.Run
import proofs.«138104_j6004364280063_2_alg».proof.Proof.Gen.ReferenceIdeal.Read
import proofs.«138104_j6004364280063_2_alg».proof.Proof.RunI
import proofs.«138104_j6004364280063_2_alg».proof.Proof.RunB
import proofs.«138104_j6004364280063_2_alg».proof.Proof.Chain
import proofs.«138104_j6004364280063_2_alg».proof.Proof.Compose
import proofs.«138104_j6004364280063_2_alg».proof.Proof.Algebra
import proofs.«138104_j6004364280063_2_alg».proof.Proof.RefSide
import proofs.«138104_j6004364280063_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs to the end and leaves its arguments as launched. -/
theorem frame_k : Cert.frame_Kernel := fun m ρ _ =>
  (θ_run (Cert.Kernel.defs (F := Bits)) _ _).mono (fun r h c =>
    ⟨(h c _ (Cert.Kernel.Att.mem_uc Cert.Kernel.main_arg0 (by decide))).trans (Cert.Kernel.Att.W6_main_arg0 m c),
     (h c _ (Cert.Kernel.Att.mem_uc Cert.Kernel.main_arg1 (by decide))).trans (Cert.Kernel.Att.W6_main_arg1 m c),
     (h c _ (Cert.Kernel.Att.mem_uc Cert.Kernel.main_arg2 (by decide))).trans (Cert.Kernel.Att.W6_main_arg2 m c),
     (h c _ (Cert.Kernel.Att.mem_uc Cert.Kernel.main_arg3 (by decide))).trans (Cert.Kernel.Att.W6_main_arg3 m c)⟩)
    (Cert.Kernel.Att.run (F := Bits) m ρ)

/-- So does the idealized program. -/
theorem frame_ki : Cert.frame_KernelIdeal := fun m ρ _ =>
  (θ_run (Cert.KernelIdeal.defs (F := Ideal)) _ _).mono (fun r h c =>
    ⟨(h c _ (Cert.KernelIdeal.Att.mem_uc Cert.KernelIdeal.main_arg0 (by decide))).trans (Cert.KernelIdeal.Att.W6_main_arg0 m c),
     (h c _ (Cert.KernelIdeal.Att.mem_uc Cert.KernelIdeal.main_arg1 (by decide))).trans (Cert.KernelIdeal.Att.W6_main_arg1 m c),
     (h c _ (Cert.KernelIdeal.Att.mem_uc Cert.KernelIdeal.main_arg2 (by decide))).trans (Cert.KernelIdeal.Att.W6_main_arg2 m c),
     (h c _ (Cert.KernelIdeal.Att.mem_uc Cert.KernelIdeal.main_arg3 (by decide))).trans (Cert.KernelIdeal.Att.W6_main_arg3 m c)⟩)
    (Cert.KernelIdeal.Att.run (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized program's result array, for finite inputs, is the reference's arrangement `G` of the inputs. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Att.W6 m c (Proc.devRef .tc Cert.KernelIdeal.main_v8)
      = fun i => Cert.Attn.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (i 0) (i 1) (i 2) := by
  rw [Cert.KernelIdeal.Att.W6_v8]
  funext i
  obtain ⟨b, n, f, rfl⟩ : ∃ (b : Fin 8) (n : Fin 1024) (f : Fin 1024), i = ix3 b n f := ⟨i 0, i 1, i 2, eq_ix3 i⟩
  obtain ⟨hx, hwq⟩ := Cert.Attn.Finite.finite_of_pre m hpre c
  rw [Cert.Attn.chain_eq_K, Cert.Attn.K_eq_G _ _ _ _ hx hwq]
  rfl

/-- From memories that agree on the arguments both idealized programs end with the same result array. -/
theorem algebraic : Cert.algebraic_KernelIdeal_ReferenceIdeal := by
  intro m ρ m' ρ' hpre hagree
  refine ⟨fun c => fun i => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2), ?_, ?_⟩
  · refine (θ_run (Cert.KernelIdeal.defs (F := Ideal)) _ _).mono (fun r h c => ⟨?_,
      (h c _ (Cert.KernelIdeal.Att.mem_uc Cert.KernelIdeal.main_arg0 (by decide))).trans (Cert.KernelIdeal.Att.W6_main_arg0 m c),
      (h c _ (Cert.KernelIdeal.Att.mem_uc Cert.KernelIdeal.main_arg1 (by decide))).trans (Cert.KernelIdeal.Att.W6_main_arg1 m c),
      (h c _ (Cert.KernelIdeal.Att.mem_uc Cert.KernelIdeal.main_arg2 (by decide))).trans (Cert.KernelIdeal.Att.W6_main_arg2 m c),
      (h c _ (Cert.KernelIdeal.Att.mem_uc Cert.KernelIdeal.main_arg3 (by decide))).trans (Cert.KernelIdeal.Att.W6_main_arg3 m c)⟩)
      (Cert.KernelIdeal.Att.run (F := Ideal) m ρ)
    exact (h c _ (Cert.KernelIdeal.Att.mem_uc Cert.KernelIdeal.main_v8 (by decide))).trans (kernel_value m hpre c)
  · refine (θ_run Cert.ReferenceIdeal.defs _ _).mono (fun r h c => ⟨?_, (h c).2⟩)
      (Cert.ReferenceIdeal.Value.run (F := Ideal) m' ρ')
    rw [(h c).1, Cert.ReferenceIdeal.Read.val_main_v29_eq, (hagree c).1, (hagree c).2.1, (hagree c).2.2.1, (hagree c).2.2.2]
    funext i
    exact Cert.Attn.RefSide.ref_is_G _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
